-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16x32 : Shape := ⟨3, ![16384, 16, 32]⟩
abbrev S96x32 : Shape := ⟨2, ![96, 32]⟩
abbrev S_ : Shape := ⟨0, ![]⟩

class Facts : Prop where
  bcast_S_S16384x16x32 : S_.BroadcastsInDim S16384x16x32 (![] : Fin 0 → Fin S16384x16x32.rank)
  reducesTo_S16384x16x32_S_d0_1_2 : S16384x16x32.ReducesTo [0, 1, 2] S_
  h_S_ : 0 < S_.numel
  bcast_S_S96x32 : S_.BroadcastsInDim S96x32 (![] : Fin 0 → Fin S96x32.rank)
  reducesTo_S96x32_S_d0_1 : S96x32.ReducesTo [0, 1] S_

variable [Facts]

def fn {F : FTy → Type} [FloatOps F] (main_arg0 : FVec F S16384x16x32 .f32) (main_arg1 : FVec F S96x32 .f32) : IVec S_ 1 :=
  let main_v0 : FVec F S16384x16x32 .f32 := Host.absf main_arg0
  let main_cst : FVec F S_ .f32 := constant S_ .f32 0x7F800000#32
  let main_v1 : FVec F S16384x16x32 .f32 := broadcastInDim S16384x16x32 ![] bcast_S_S16384x16x32 main_cst
  let main_v2 : IVec S16384x16x32 1 := cmpf .olt main_v0 main_v1
  let main_c : IVec S_ 1 := constantI S_ 1 1#1
  let main_v3 : IVec S_ 1 := (fun x v => Host.reduce IntOp.andi x v reducesTo_S16384x16x32_S_d0_1_2 h_S_) main_v2 main_c
  let main_v4 : FVec F S96x32 .f32 := Host.absf main_arg1
  let main_cst_0 : FVec F S_ .f32 := constant S_ .f32 0x7F800000#32
  let main_v5 : FVec F S96x32 .f32 := broadcastInDim S96x32 ![] bcast_S_S96x32 main_cst_0
  let main_v6 : IVec S96x32 1 := cmpf .olt main_v4 main_v5
  let main_c_1 : IVec S_ 1 := constantI S_ 1 1#1
  let main_v7 : IVec S_ 1 := (fun x v => Host.reduce IntOp.andi x v reducesTo_S96x32_S_d0_1 h_S_) main_v6 main_c_1
  let main_v8 : IVec S_ 1 := andi main_v3 main_v7
  main_v8
-- ==== Kernel.lean ====
abbrev S16384x16x32 : Shape := ⟨3, ![16384, 16, 32]⟩
abbrev S96x32 : Shape := ⟨2, ![96, 32]⟩
abbrev S32x32 : Shape := ⟨2, ![32, 32]⟩
abbrev S1x32 : Shape := ⟨2, ![1, 32]⟩
abbrev S32 : Shape := ⟨1, ![32]⟩
abbrev S32x8 : Shape := ⟨2, ![32, 8]⟩
abbrev S1x8 : Shape := ⟨2, ![1, 8]⟩
abbrev S8 : Shape := ⟨1, ![8]⟩
abbrev S16x16 : Shape := ⟨2, ![16, 16]⟩
abbrev S_ : Shape := ⟨0, ![]⟩
abbrev S16x1x16x1 : Shape := ⟨4, ![16, 1, 16, 1]⟩
abbrev S1x32x1x32 : Shape := ⟨4, ![1, 32, 1, 32]⟩
abbrev S16x32x16x32 : Shape := ⟨4, ![16, 32, 16, 32]⟩
abbrev S512x512 : Shape := ⟨2, ![512, 512]⟩
abbrev S1x32x1x8 : Shape := ⟨4, ![1, 32, 1, 8]⟩
abbrev S16x32x16x8 : Shape := ⟨4, ![16, 32, 16, 8]⟩
abbrev S512x128 : Shape := ⟨2, ![512, 128]⟩
abbrev S16x32 : Shape := ⟨2, ![16, 32]⟩
abbrev S512 : Shape := ⟨1, ![512]⟩
abbrev S1x512 : Shape := ⟨2, ![1, 512]⟩
abbrev S8x512 : Shape := ⟨2, ![8, 512]⟩
abbrev S16 : Shape := ⟨1, ![16]⟩
abbrev S16x1 : Shape := ⟨2, ![16, 1]⟩
abbrev S16x8 : Shape := ⟨2, ![16, 8]⟩
abbrev S1x128 : Shape := ⟨2, ![1, 128]⟩
abbrev S8x128 : Shape := ⟨2, ![8, 128]⟩
abbrev S8x8 : Shape := ⟨2, ![8, 8]⟩
abbrev S1x8x1x8 : Shape := ⟨4, ![1, 8, 1, 8]⟩
abbrev S16x8x16x8 : Shape := ⟨4, ![16, 8, 16, 8]⟩
abbrev S128x128 : Shape := ⟨2, ![128, 128]⟩
abbrev S16384x512 : Shape := ⟨2, ![16384, 512]⟩
abbrev S16384x128 : Shape := ⟨2, ![16384, 128]⟩
abbrev S16384x16x8 : Shape := ⟨3, ![16384, 16, 8]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩

abbrev nBuf : Space → Nat
  | .hbm => 57
  | .vmem => 9
  | .smem => 0
  | _ => 0

abbrev bufTy : (tb : Table) → Fin (tcTables nBuf tb) → BufTy
  | .hbm, ⟨0, _⟩ => ⟨S16384x16x32, .f32⟩
  | .hbm, ⟨1, _⟩ => ⟨S96x32, .f32⟩
  | .hbm, ⟨2, _⟩ => ⟨S32x32, .f32⟩
  | .hbm, ⟨3, _⟩ => ⟨S1x32, .f32⟩
  | .hbm, ⟨4, _⟩ => ⟨S32, .f32⟩
  | .hbm, ⟨5, _⟩ => ⟨S32x8, .f32⟩
  | .hbm, ⟨6, _⟩ => ⟨S1x8, .f32⟩
  | .hbm, ⟨7, _⟩ => ⟨S8, .f32⟩
  | .hbm, ⟨8, _⟩ => ⟨S16x16, .f32⟩
  | .hbm, ⟨9, _⟩ => ⟨S16x16, .i32⟩
  | .hbm, ⟨10, _⟩ => ⟨S16x16, .i32⟩
  | .hbm, ⟨11, _⟩ => ⟨S_, .i32⟩
  | .hbm, ⟨12, _⟩ => ⟨S16x16, .i32⟩
  | .hbm, ⟨13, _⟩ => ⟨S16x16, .i32⟩
  | .hbm, ⟨14, _⟩ => ⟨S16x16, .i1⟩
  | .hbm, ⟨15, _⟩ => ⟨S16x16, .f32⟩
  | .hbm, ⟨16, _⟩ => ⟨S16x1x16x1, .f32⟩
  | .hbm, ⟨17, _⟩ => ⟨S1x32x1x32, .f32⟩
  | .hbm, ⟨18, _⟩ => ⟨S16x32x16x32, .f32⟩
  | .hbm, ⟨19, _⟩ => ⟨S16x32x16x32, .f32⟩
  | .hbm, ⟨20, _⟩ => ⟨S16x32x16x32, .f32⟩
  | .hbm, ⟨21, _⟩ => ⟨S512x512, .f32⟩
  | .hbm, ⟨22, _⟩ => ⟨S512x512, .bf16⟩
  | .hbm, ⟨23, _⟩ => ⟨S16x16, .f32⟩
  | .hbm, ⟨24, _⟩ => ⟨S16x1x16x1, .f32⟩
  | .hbm, ⟨25, _⟩ => ⟨S1x32x1x8, .f32⟩
  | .hbm, ⟨26, _⟩ => ⟨S16x32x16x8, .f32⟩
  | .hbm, ⟨27, _⟩ => ⟨S16x32x16x8, .f32⟩
  | .hbm, ⟨28, _⟩ => ⟨S16x32x16x8, .f32⟩
  | .hbm, ⟨29, _⟩ => ⟨S512x128, .f32⟩
  | .hbm, ⟨30, _⟩ => ⟨S512x128, .bf16⟩
  | .hbm, ⟨31, _⟩ => ⟨S1x32, .f32⟩
  | .hbm, ⟨32, _⟩ => ⟨S16x32, .f32⟩
  | .hbm, ⟨33, _⟩ => ⟨S512, .f32⟩
  | .hbm, ⟨34, _⟩ => ⟨S1x512, .f32⟩
  | .hbm, ⟨35, _⟩ => ⟨S8x512, .f32⟩
  | .hbm, ⟨36, _⟩ => ⟨S_, .f32⟩
  | .hbm, ⟨37, _⟩ => ⟨S16, .f32⟩
  | .hbm, ⟨38, _⟩ => ⟨S16x1, .f32⟩
  | .hbm, ⟨39, _⟩ => ⟨S1x8, .f32⟩
  | .hbm, ⟨40, _⟩ => ⟨S16x8, .f32⟩
  | .hbm, ⟨41, _⟩ => ⟨S16x8, .f32⟩
  | .hbm, ⟨42, _⟩ => ⟨S16x8, .f32⟩
  | .hbm, ⟨43, _⟩ => ⟨S1x128, .f32⟩
  | .hbm, ⟨44, _⟩ => ⟨S8x128, .f32⟩
  | .hbm, ⟨45, _⟩ => ⟨S16x1x16x1, .f32⟩
  | .hbm, ⟨46, _⟩ => ⟨S_, .f32⟩
  | .hbm, ⟨47, _⟩ => ⟨S8x8, .f32⟩
  | .hbm, ⟨48, _⟩ => ⟨S1x8x1x8, .f32⟩
  | .hbm, ⟨49, _⟩ => ⟨S16x8x16x8, .f32⟩
  | .hbm, ⟨50, _⟩ => ⟨S16x8x16x8, .f32⟩
  | .hbm, ⟨51, _⟩ => ⟨S16x8x16x8, .f32⟩
  | .hbm, ⟨52, _⟩ => ⟨S128x128, .f32⟩
  | .hbm, ⟨53, _⟩ => ⟨S128x128, .bf16⟩
  | .hbm, ⟨54, _⟩ => ⟨S16384x512, .f32⟩
  | .hbm, ⟨55, _⟩ => ⟨S16384x128, .f32⟩
  | .hbm, ⟨56, _⟩ => ⟨S16384x16x8, .f32⟩
  | .local _ .vmem, ⟨0, _⟩ => ⟨S1024x512, .f32⟩
  | .local _ .vmem, ⟨1, _⟩ => ⟨S1024x512, .f32⟩
  | .local _ .vmem, ⟨2, _⟩ => ⟨S512x512, .bf16⟩
  | .local _ .vmem, ⟨3, _⟩ => ⟨S8x512, .f32⟩
  | .local _ .vmem, ⟨4, _⟩ => ⟨S512x128, .bf16⟩
  | .local _ .vmem, ⟨5, _⟩ => ⟨S8x128, .f32⟩
  | .local _ .vmem, ⟨6, _⟩ => ⟨S128x128, .bf16⟩
  | .local _ .vmem, ⟨7, _⟩ => ⟨S1024x128, .f32⟩
  | .local _ .vmem, ⟨8, _⟩ => ⟨S1024x128, .f32⟩
  | _, _ => ⟨S16384x16x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_call0_v7 : Ref sig .tc := ⟨.hbm, 9, rfl⟩
abbrev main_call0_v8 : Ref sig .tc := ⟨.hbm, 10, rfl⟩
abbrev main_call0_c : Ref sig .tc := ⟨.hbm, 11, rfl⟩
abbrev main_call0_v9 : Ref sig .tc := ⟨.hbm, 12, rfl⟩
abbrev main_call0_v10 : Ref sig .tc := ⟨.hbm, 13, rfl⟩
abbrev main_call0_v11 : Ref sig .tc := ⟨.hbm, 14, rfl⟩
abbrev main_call0_v12 : Ref sig .tc := ⟨.hbm, 15, rfl⟩
abbrev main_call0_v13 : Ref sig .tc := ⟨.hbm, 16, rfl⟩
abbrev main_call0_v14 : Ref sig .tc := ⟨.hbm, 17, rfl⟩
abbrev main_call0_v15 : Ref sig .tc := ⟨.hbm, 18, rfl⟩
abbrev main_call0_v16 : Ref sig .tc := ⟨.hbm, 19, rfl⟩
abbrev main_call0_v17 : Ref sig .tc := ⟨.hbm, 20, rfl⟩
abbrev main_call0_v18 : Ref sig .tc := ⟨.hbm, 21, rfl⟩
abbrev main_call0_v19 : Ref sig .tc := ⟨.hbm, 22, rfl⟩
abbrev main_call0_v20 : Ref sig .tc := ⟨.hbm, 23, rfl⟩
abbrev main_call0_v21 : Ref sig .tc := ⟨.hbm, 24, rfl⟩
abbrev main_call0_v22 : Ref sig .tc := ⟨.hbm, 25, rfl⟩
abbrev main_call0_v23 : Ref sig .tc := ⟨.hbm, 26, rfl⟩
abbrev main_call0_v24 : Ref sig .tc := ⟨.hbm, 27, rfl⟩
abbrev main_call0_v25 : Ref sig .tc := ⟨.hbm, 28, rfl⟩
abbrev main_call0_v26 : Ref sig .tc := ⟨.hbm, 29, rfl⟩
abbrev main_call0_v27 : Ref sig .tc := ⟨.hbm, 30, rfl⟩
abbrev main_call0_v28 : Ref sig .tc := ⟨.hbm, 31, rfl⟩
abbrev main_call0_v29 : Ref sig .tc := ⟨.hbm, 32, rfl⟩
abbrev main_call0_v30 : Ref sig .tc := ⟨.hbm, 33, rfl⟩
abbrev main_call0_v31 : Ref sig .tc := ⟨.hbm, 34, rfl⟩
abbrev main_call0_v32 : Ref sig .tc := ⟨.hbm, 35, rfl⟩
abbrev main_call0_cst : Ref sig .tc := ⟨.hbm, 36, rfl⟩
abbrev main_call0_v33 : Ref sig .tc := ⟨.hbm, 37, rfl⟩
abbrev main_call0_v34 : Ref sig .tc := ⟨.hbm, 38, rfl⟩
abbrev main_call0_v35 : Ref sig .tc := ⟨.hbm, 39, rfl⟩
abbrev main_call0_v36 : Ref sig .tc := ⟨.hbm, 40, rfl⟩
abbrev main_call0_v37 : Ref sig .tc := ⟨.hbm, 41, rfl⟩
abbrev main_call0_v38 : Ref sig .tc := ⟨.hbm, 42, rfl⟩
abbrev main_call0_v39 : Ref sig .tc := ⟨.hbm, 43, rfl⟩
abbrev main_call0_v40 : Ref sig .tc := ⟨.hbm, 44, rfl⟩
abbrev main_call0_v41 : Ref sig .tc := ⟨.hbm, 45, rfl⟩
abbrev main_call0_cst_0 : Ref sig .tc := ⟨.hbm, 46, rfl⟩
abbrev main_call0_v42 : Ref sig .tc := ⟨.hbm, 47, rfl⟩
abbrev main_call0_v43 : Ref sig .tc := ⟨.hbm, 48, rfl⟩
abbrev main_call0_v44 : Ref sig .tc := ⟨.hbm, 49, rfl⟩
abbrev main_call0_v45 : Ref sig .tc := ⟨.hbm, 50, rfl⟩
abbrev main_call0_v46 : Ref sig .tc := ⟨.hbm, 51, rfl⟩
abbrev main_call0_v47 : Ref sig .tc := ⟨.hbm, 52, rfl⟩
abbrev main_call0_v48 : Ref sig .tc := ⟨.hbm, 53, rfl⟩
abbrev main_call0_v49 : Ref sig .tc := ⟨.hbm, 54, rfl⟩
abbrev main_call0_v50 : Ref sig .tc := ⟨.hbm, 55, rfl⟩
abbrev main_v0 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S96x32_S32x32_0_0 : S96x32.Slices ![0, 0] S32x32
  slices_S96x32_S1x32_32_0 : S96x32.Slices ![32, 0] S1x32
  shapeCasts_S1x32_S32 : S1x32.ShapeCasts S32
  slices_S96x32_S32x8_40_0 : S96x32.Slices ![40, 0] S32x8
  slices_S96x32_S1x8_72_0 : S96x32.Slices ![72, 0] S1x8
  shapeCasts_S1x8_S8 : S1x8.ShapeCasts S8
  slices_S96x32_S16x16_80_0 : S96x32.Slices ![80, 0] S16x16
  bcast_S_S16x16 : S_.BroadcastsInDim S16x16 (![] : Fin 0 → Fin S16x16.rank)
  bcast_S16x16_S16x1x16x1_0_2 : S16x16.BroadcastsInDim S16x1x16x1 (![0, 2] : Fin 2 → Fin S16x1x16x1.rank)
  bcast_S32x32_S1x32x1x32_1_3 : S32x32.BroadcastsInDim S1x32x1x32 (![1, 3] : Fin 2 → Fin S1x32x1x32.rank)
  bcast_S16x1x16x1_S16x32x16x32_0_1_2_3 : S16x1x16x1.BroadcastsInDim S16x32x16x32 (![0, 1, 2, 3] : Fin 4 → Fin S16x32x16x32.rank)
  bcast_S1x32x1x32_S16x32x16x32_0_1_2_3 : S1x32x1x32.BroadcastsInDim S16x32x16x32 (![0, 1, 2, 3] : Fin 4 → Fin S16x32x16x32.rank)
  shapeCasts_S16x32x16x32_S512x512 : S16x32x16x32.ShapeCasts S512x512
  bitsLt_bf16_f32 : FTy.bits .bf16 < FTy.bits .f32
  transposes_S16x16_S16x16_1_0 : S16x16.Transposes [1, 0] S16x16
  bcast_S32x8_S1x32x1x8_1_3 : S32x8.BroadcastsInDim S1x32x1x8 (![1, 3] : Fin 2 → Fin S1x32x1x8.rank)
  bcast_S16x1x16x1_S16x32x16x8_0_1_2_3 : S16x1x16x1.BroadcastsInDim S16x32x16x8 (![0, 1, 2, 3] : Fin 4 → Fin S16x32x16x8.rank)
  bcast_S1x32x1x8_S16x32x16x8_0_1_2_3 : S1x32x1x8.BroadcastsInDim S16x32x16x8 (![0, 1, 2, 3] : Fin 4 → Fin S16x32x16x8.rank)
  shapeCasts_S16x32x16x8_S512x128 : S16x32x16x8.ShapeCasts S512x128
  shapeCasts_S32_S1x32 : S32.ShapeCasts S1x32
  bcast_S1x32_S16x32_0_1 : S1x32.BroadcastsInDim S16x32 (![0, 1] : Fin 2 → Fin S16x32.rank)
  shapeCasts_S16x32_S512 : S16x32.ShapeCasts S512
  bcast_S512_S1x512_1 : S512.BroadcastsInDim S1x512 (![1] : Fin 1 → Fin S1x512.rank)
  bcast_S1x512_S8x512_0_1 : S1x512.BroadcastsInDim S8x512 (![0, 1] : Fin 2 → Fin S8x512.rank)
  reducesTo_S16x16_S16_d1 : S16x16.ReducesTo [1] S16
  h_S_ : 0 < S_.numel
  bcast_S16_S16x1_0 : S16.BroadcastsInDim S16x1 (![0] : Fin 1 → Fin S16x1.rank)
  bcast_S8_S1x8_1 : S8.BroadcastsInDim S1x8 (![1] : Fin 1 → Fin S1x8.rank)
  bcast_S16x1_S16x8_0_1 : S16x1.BroadcastsInDim S16x8 (![0, 1] : Fin 2 → Fin S16x8.rank)
  bcast_S1x8_S16x8_0_1 : S1x8.BroadcastsInDim S16x8 (![0, 1] : Fin 2 → Fin S16x8.rank)
  shapeCasts_S16x8_S1x128 : S16x8.ShapeCasts S1x128
  bcast_S1x128_S8x128_0_1 : S1x128.BroadcastsInDim S8x128 (![0, 1] : Fin 2 → Fin S8x128.rank)
  bcast_S_S8x8 : S_.BroadcastsInDim S8x8 (![] : Fin 0 → Fin S8x8.rank)
  bcast_S8x8_S1x8x1x8_1_3 : S8x8.BroadcastsInDim S1x8x1x8 (![1, 3] : Fin 2 → Fin S1x8x1x8.rank)
  bcast_S16x1x16x1_S16x8x16x8_0_1_2_3 : S16x1x16x1.BroadcastsInDim S16x8x16x8 (![0, 1, 2, 3] : Fin 4 → Fin S16x8x16x8.rank)
  bcast_S1x8x1x8_S16x8x16x8_0_1_2_3 : S1x8x1x8.BroadcastsInDim S16x8x16x8 (![0, 1, 2, 3] : Fin 4 → Fin S16x8x16x8.rank)
  shapeCasts_S16x8x16x8_S128x128 : S16x8x16x8.ShapeCasts S128x128
  shapeCasts_S16384x16x32_S16384x512 : S16384x16x32.ShapeCasts S16384x512
  shapeCasts_S16384x128_S16384x16x8 : S16384x128.ShapeCasts S16384x16x8
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S8x512_S1x512_0_0 : ∀ a, (![0, 0] : Fin 2 → Nat) a + S1x512.size a ≤ S8x512.size a
  h_S1x512 : 0 < S1x512.numel
  shapeCasts_S1x512_S1x512 : S1x512.ShapeCasts S1x512
  broadcasts_S1x512_S1024x512 : S1x512.Broadcasts S1024x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S8x128_S1x128_0_0 : ∀ a, (![0, 0] : Fin 2 → Nat) a + S1x128.size a ≤ S8x128.size a
  h_S1x128 : 0 < S1x128.numel
  shapeCasts_S1x128_S1x128 : S1x128.ShapeCasts S1x128
  broadcasts_S1x128_S1024x128 : S1x128.Broadcasts S1024x128
  reduces_S1024x128_S1024 : S1024x128.Reduces [1] S1024
  shapeCasts_S1024_S1024x1 : S1024.ShapeCasts S1024x1
  broadcasts_S1024x1_S1024x128 : S1024x1.Broadcasts S1024x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1024x128_S1024x128_0_0 : ∀ a, (![0, 0] : Fin 2 → Nat) a + S1024x128.size a ≤ S1024x128.size a
  h_S1024x128 : 0 < S1024x128.numel
  dot_S1024x512_S512x512_S1024x512_1_0_0_1_n_n_wf : DotDims.WF S1024x512 S512x512 S1024x512 [1] [0] [0] [1] [] []
  dot_S1024x512_S512x128_S1024x128_1_0_0_1_n_n_wf : DotDims.WF S1024x512 S512x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S8x512.size a
  hwx0_2 : ∀ i : grid0.Coords, EltTy.bits .f32 = 32 ∨ (Rect.block (s := S8x512) S8x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .bf16 = 32 ∨ (Rect.block (s := S512x128) S512x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S8x128.size a
  hwx0_4 : ∀ i : grid0.Coords, EltTy.bits .f32 = 32 ∨ (Rect.block (s := S8x128) S8x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x128.size a ≤ S16384x128.size a
  hwx0_6 : ∀ i : grid0.Coords, EltTy.bits .f32 = 32 ∨ (Rect.block (s := S16384x128) S1024x128.size (cc0_transform_6 i) (hinb0_6 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_call0_v49) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v19) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v32) S8x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v27) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v40) S8x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v48) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v50) S1024x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x16x32 : Shape := ⟨3, ![16384, 16, 32]⟩
abbrev S96x32 : Shape := ⟨2, ![96, 32]⟩
abbrev S16384x16x8 : Shape := ⟨3, ![16384, 16, 8]⟩
abbrev S1x16x32 : Shape := ⟨3, ![1, 16, 32]⟩
abbrev S1x16x8 : Shape := ⟨3, ![1, 16, 8]⟩
abbrev S16x32 : Shape := ⟨2, ![16, 32]⟩
abbrev S32x32 : Shape := ⟨2, ![32, 32]⟩
abbrev S1x32 : Shape := ⟨2, ![1, 32]⟩
abbrev S32x8 : Shape := ⟨2, ![32, 8]⟩
abbrev S1x8 : Shape := ⟨2, ![1, 8]⟩
abbrev S16x16 : Shape := ⟨2, ![16, 16]⟩
abbrev S16x8 : Shape := ⟨2, ![16, 8]⟩
abbrev S16 : Shape := ⟨1, ![16]⟩
abbrev S16x1 : Shape := ⟨2, ![16, 1]⟩

abbrev nBuf : Space → Nat
  | .hbm => 3
  | .vmem => 5
  | .smem => 0
  | _ => 0

abbrev bufTy : (tb : Table) → Fin (tcTables nBuf tb) → BufTy
  | .hbm, ⟨0, _⟩ => ⟨S16384x16x32, .f32⟩
  | .hbm, ⟨1, _⟩ => ⟨S96x32, .f32⟩
  | .hbm, ⟨2, _⟩ => ⟨S16384x16x8, .f32⟩
  | .local _ .vmem, ⟨0, _⟩ => ⟨S1x16x32, .f32⟩
  | .local _ .vmem, ⟨1, _⟩ => ⟨S1x16x32, .f32⟩
  | .local _ .vmem, ⟨2, _⟩ => ⟨S96x32, .f32⟩
  | .local _ .vmem, ⟨3, _⟩ => ⟨S1x16x8, .f32⟩
  | .local _ .vmem, ⟨4, _⟩ => ⟨S1x16x8, .f32⟩
  | _, _ => ⟨S16384x16x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16384], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x16x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x16x32_S1x16x32_0_0_0 : ∀ a, (![0, 0, 0] : Fin 3 → Nat) a + S1x16x32.size a ≤ S1x16x32.size a
  h_S1x16x32 : 0 < S1x16x32.numel
  shapeCasts_S1x16x32_S16x32 : S1x16x32.ShapeCasts S16x32
  inb_S96x32_S32x32_0_0 : ∀ a, (![0, 0] : Fin 2 → Nat) a + S32x32.size a ≤ S96x32.size a
  h_S32x32 : 0 < S32x32.numel
  inb_S96x32_S1x32_32_0 : ∀ a, (![32, 0] : Fin 2 → Nat) a + S1x32.size a ≤ S96x32.size a
  h_S1x32 : 0 < S1x32.numel
  inb_S96x32_S32x8_40_0 : ∀ a, (![40, 0] : Fin 2 → Nat) a + S32x8.size a ≤ S96x32.size a
  h_S32x8 : 0 < S32x8.numel
  inb_S96x32_S1x8_72_0 : ∀ a, (![72, 0] : Fin 2 → Nat) a + S1x8.size a ≤ S96x32.size a
  h_S1x8 : 0 < S1x8.numel
  inb_S96x32_S16x16_80_0 : ∀ a, (![80, 0] : Fin 2 → Nat) a + S16x16.size a ≤ S96x32.size a
  h_S16x16 : 0 < S16x16.numel
  broadcasts_S1x32_S16x32 : S1x32.Broadcasts S16x32
  broadcasts_S1x8_S16x8 : S1x8.Broadcasts S16x8
  reduces_S16x8_S16 : S16x8.Reduces [1] S16
  shapeCasts_S16_S16x1 : S16.ShapeCasts S16x1
  broadcasts_S16x1_S16x8 : S16x1.Broadcasts S16x8
  inb_S1x16x8_S1x16x8_0_0_0 : ∀ a, (![0, 0, 0] : Fin 3 → Nat) a + S1x16x8.size a ≤ S1x16x8.size a
  h_S1x16x8 : 0 < S1x16x8.numel
  shapeCasts_S1x16x8_S16x8 : S1x16x8.ShapeCasts S16x8
  shapeCasts_S16x8_S1x16x8 : S16x8.ShapeCasts S1x16x8
  dot_S16x32_S32x32_S16x32_1_0_0_1_n_n_wf : DotDims.WF S16x32 S32x32 S16x32 [1] [0] [0] [1] [] []
  dot_S16x32_S32x8_S16x8_1_0_0_1_n_n_wf : DotDims.WF S16x32 S32x8 S16x8 [1] [0] [0] [1] [] []
  dot_S16x16_S16x8_S16x8_1_0_0_1_n_n_wf : DotDims.WF S16x16 S16x8 S16x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x32.size a ≤ S16384x16x32.size a
  hwx0_0 : ∀ i : grid0.Coords, EltTy.bits .f32 = 32 ∨ (Rect.block (s := S16384x16x32) S1x16x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x32.size a ≤ S96x32.size a
  hwx0_1 : ∀ i : grid0.Coords, EltTy.bits .f32 = 32 ∨ (Rect.block (s := S96x32) S96x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x8.size a ≤ S16384x16x8.size a
  hwx0_2 : ∀ i : grid0.Coords, EltTy.bits .f32 = 32 ∨ (Rect.block (s := S16384x16x8) S1x16x8.size (cc0_transform_2 i) (hinb0_2 i)).WholeWords (EltTy.packing .f32)

variable [Facts₀]

def dot_S16x32_S32x32_S16x32_1_0_0_1_n_n : DotDims S16x32 S32x32 S16x32 where
  lhsContracting := [1]
  rhsContracting := [0]
  lhsNonContracting := [0]
  rhsNonContracting := [1]
  lhsBatch := []
  rhsBatch := []
  wf := dot_S16x32_S32x32_S16x32_1_0_0_1_n_n_wf
def dot_S16x32_S32x8_S16x8_1_0_0_1_n_n : DotDims S16x32 S32x8 S16x8 where
  lhsContracting := [1]
  rhsContracting := [0]
  lhsNonContracting := [0]
  rhsNonContracting := [1]
  lhsBatch := []
  rhsBatch := []
  wf := dot_S16x32_S32x8_S16x8_1_0_0_1_n_n_wf
def dot_S16x16_S16x8_S16x8_1_0_0_1_n_n : DotDims S16x16 S16x8 S16x8 where
  lhsContracting := [1]
  rhsContracting := [0]
  lhsNonContracting := [0]
  rhsNonContracting := [1]
  lhsBatch := []
  rhsBatch := []
  wf := dot_S16x16_S16x8_S16x8_1_0_0_1_n_n_wf

abbrev win0_0 : Pipeline.Window sig grid0 :=
  Pipeline.Window.ofSpec (Memref.whole main_arg0) S1x16x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S96x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16x8.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== Proof.Spec.lean ====
/-
  The two programs' results, each written index by index as a function of the two argument arrays, over the
  extended reals.

  The arguments are `X`, 16384 graphs of 16 nodes with 32 features each, and `S`, a 96 x 32 table that packs five
  constants: the first layer's weights `w1` (32 x 32, rows 0-31) and bias `b1` (row 32), the second layer's weights
  `w2` (32 x 8, rows 40-71) and bias `b2` (row 72, 8 columns), and a 16 x 16 propagation matrix `pm` (rows 80-95).

  Per graph `b` the reference computes, node by node: `hid = max (x · w1 + b1) 0`, `loc = hid · w2 + b2`,
  `preds = pm · loc`, and the log-softmax of each node's 8 predictions, written with the node's own maximum
  subtracted first (`refOut`).

  The kernel flattens a graph to one row of 512 lanes and uses three block matrices built from the same table:
  `w1k = I₁₆ ⊗ w1` (512 x 512), `m2 = pmᵀ ⊗ w2` (512 x 128) and `gm = I₁₆ ⊗ 1₈ₓ₈` (128 x 128), with the biases tiled
  accordingly; it subtracts the maximum of the WHOLE row of 128 predictions, and takes the 8-lane group sums of the
  exponentials by the product with `gm` (`kerOut`). Lane `32 j + k` of a 512-row is node `j`, feature `k`; lane
  `8 i + c` of a 128-row is node `i`, class `c`.
-/
import Idealize.ShloMosaic.PureOps.Ideal
import Idealize.ShloMosaic.Lib.ValueIdx

noncomputable section

open scoped BigOperators

namespace Cert.Spec

open Idealize.ShloMosaic Idealize.ShloMosaic.ValueIdx

/-- The graphs' features. -/
abbrev XArr : Type := (⟨3, ![16384, 16, 32]⟩ : Shape).Idx → EReal
/-- The packed table of constants. -/
abbrev SArr : Type := (⟨2, ![96, 32]⟩ : Shape).Idx → EReal
/-- The result: 8 log-probabilities per node. -/
abbrev OArr : Type := (⟨3, ![16384, 16, 8]⟩ : Shape).Idx → EReal

variable (X : XArr) (S : SArr)

/-! ## The five constants packed in the table -/

/-- First layer's weights: rows 0-31. -/
def w1 (f k : Fin 32) : EReal := S (ix2 (⟨f.val, by have := f.isLt; omega⟩ : Fin 96) k)
/-- First layer's bias: row 32. -/
def b1 (k : Fin 32) : EReal := S (ix2 (⟨32, by omega⟩ : Fin 96) k)
/-- Second layer's weights: rows 40-71, columns 0-7. -/
def w2 (k : Fin 32) (c : Fin 8) : EReal :=
  S (ix2 (⟨40 + k.val, by have := k.isLt; omega⟩ : Fin 96) (⟨c.val, by have := c.isLt; omega⟩ : Fin 32))
/-- Second layer's bias: row 72, columns 0-7. -/
def b2 (c : Fin 8) : EReal := S (ix2 (⟨72, by omega⟩ : Fin 96) (⟨c.val, by have := c.isLt; omega⟩ : Fin 32))
/-- The propagation matrix: rows 80-95, columns 0-15. -/
def pm (i j : Fin 16) : EReal :=
  S (ix2 (⟨80 + i.val, by have := i.isLt; omega⟩ : Fin 96) (⟨j.val, by have := j.isLt; omega⟩ : Fin 32))

/-! ## The reference, one graph at a time -/

/-- Hidden features of node `j`: the rectified first layer. -/
def hid (b : Fin 16384) (j : Fin 16) (k : Fin 32) : EReal :=
  max ((∑ f : Fin 32, X (ix3 b j f) * w1 S f k) + b1 S k) 0
/-- Local predictions of node `j`: the second layer. -/
def loc (b : Fin 16384) (j : Fin 16) (c : Fin 8) : EReal :=
  (∑ k : Fin 32, hid X S b j k * w2 S k c) + b2 S c
/-- Propagated predictions of node `i`. -/
def preds (b : Fin 16384) (i : Fin 16) (c : Fin 8) : EReal :=
  ∑ j : Fin 16, pm S i j * loc X S b j c
/-- The largest of node `i`'s 8 predictions. -/
def rowMax (b : Fin 16384) (i : Fin 16) : EReal :=
  (Finset.univ : Finset (Fin 8)).fold max ⊥ (fun c => preds X S b i c)
/-- The log-softmax of node `i`'s predictions, the node's maximum subtracted first. -/
def refOut (b : Fin 16384) (i : Fin 16) (c : Fin 8) : EReal :=
  (preds X S b i c - rowMax X S b i)
    - Ideal.log (∑ c' : Fin 8, Ideal.exp (preds X S b i c' - rowMax X S b i))
/-- The reference's result array. -/
def Gref : OArr := fun q => refOut X S (q 0) (q 1) (q 2)

/-! ## The kernel, one flattened graph at a time -/

/-- The identity matrix's entry. -/
def eye (a b : ℕ) : EReal := if a = b then 1 else 0

/-- A graph as one row of 512 lanes. -/
def x2 (g : Fin 16384) (r : Fin 512) : EReal :=
  X (ix3 g (⟨r.val / 32, by have := r.isLt; omega⟩ : Fin 16) (⟨r.val % 32, Nat.mod_lt _ (by omega)⟩ : Fin 32))
/-- `I₁₆ ⊗ w1`. -/
def w1k (r col : Fin 512) : EReal :=
  eye (r.val / 32) (col.val / 32)
    * w1 S (⟨r.val % 32, Nat.mod_lt _ (by omega)⟩ : Fin 32) (⟨col.val % 32, Nat.mod_lt _ (by omega)⟩ : Fin 32)
/-- The first bias tiled over the 16 nodes. -/
def b1t (col : Fin 512) : EReal := b1 S (⟨col.val % 32, Nat.mod_lt _ (by omega)⟩ : Fin 32)
/-- `pmᵀ ⊗ w2`: row `32 j + k`, column `8 i + c` holds `pm i j * w2 k c`. -/
def m2 (r : Fin 512) (q : Fin 128) : EReal :=
  pm S (⟨q.val / 8, by have := q.isLt; omega⟩ : Fin 16) (⟨r.val / 32, by have := r.isLt; omega⟩ : Fin 16)
    * w2 S (⟨r.val % 32, Nat.mod_lt _ (by omega)⟩ : Fin 32) (⟨q.val % 8, Nat.mod_lt _ (by omega)⟩ : Fin 8)
/-- The second bias after propagation: the row sum of `pm` times `b2`. -/
def b2t (q : Fin 128) : EReal :=
  (∑ j : Fin 16, pm S (⟨q.val / 8, by have := q.isLt; omega⟩ : Fin 16) j)
    * b2 S (⟨q.val % 8, Nat.mod_lt _ (by omega)⟩ : Fin 8)
/-- `I₁₆ ⊗ 1₈ₓ₈`: one inside the 8 x 8 diagonal blocks. -/
def gm (r q : Fin 128) : EReal := eye (r.val / 8) (q.val / 8) * 1

/-- Hidden features, flattened. -/
def hK (g : Fin 16384) (col : Fin 512) : EReal :=
  max ((∑ r : Fin 512, x2 X g r * w1k S r col) + b1t S col) 0
/-- Propagated predictions, flattened. -/
def zK (g : Fin 16384) (q : Fin 128) : EReal :=
  (∑ r : Fin 512, hK X S g r * m2 S r q) + b2t S q
/-- The largest of a graph's 128 predictions. -/
def MK (g : Fin 16384) : EReal :=
  (Finset.univ : Finset (Fin 128)).fold max ⊥ (fun q => zK X S g q)
/-- The kernel's entry at lane `q`: the graph's maximum subtracted, the group sums taken by the product with `gm`. -/
def kerOut (g : Fin 16384) (q : Fin 128) : EReal :=
  (zK X S g q - MK X S g)
    - Ideal.log (∑ q' : Fin 128, Ideal.exp (zK X S g q' - MK X S g) * gm q' q)
/-- The kernel's result array: lane `8 i + c` of row `b` is node `i`, class `c` of graph `b`. -/
def Gker : OArr := fun p =>
  kerOut X S (p 0) (⟨8 * (p 1).val + (p 2).val, by
    have h1 : (p 1).val < 16 := (p 1).isLt
    have h2 : (p 2).val < 8 := (p 2).isLt
    omega⟩ : Fin 128)

end Cert.Spec

end
-- ==== Proof.Glue.lean ====
/-
  The six arrays the kernel's region reads, index by index, as functions of the two arguments.

  Before the region runs, the program computes its six operands from the argument arrays `X` (the graphs) and `S` (the
  packed table): `X` with each graph flattened to one row of 512 lanes; three block matrices `I₁₆ ⊗ w1`, `pmᵀ ⊗ w2` and
  `I₁₆ ⊗ 1₈ₓ₈`; and the two biases tiled along a row (the second one multiplied by the row sums of `pm`), each row
  repeated 8 times. A block matrix `A ⊗ B` is formed by placing `A` on axes 0 and 2 and `B` on axes 1 and 3 of a rank-4
  array, multiplying, and flattening `[n0, m0, n1, m1]` to `[n0 * m0, n1 * m1]`: row `a * m0 + b`, column `c * m1 + d`
  holds `A (a, c) * B (b, d)`. The identity matrix is the comparison "row number = column number" converted to a float:
  `1` on the diagonal, `0` off it. Rounding to bf16 changes nothing at the ideal values.

  First the layout operations are read at an index given by coordinates, for arbitrary extents; then each of the six
  arrays is written as a term over `X` and `S` and read at an index as the specification's entry; last, each buffer the
  region finds is shown to hold that term.
-/
import proofs.«139694_g2000206686455459_pallasbulk_945_2_alg».proof.Proof.Gen.KernelIdeal.Frame
import proofs.«139694_g2000206686455459_pallasbulk_945_2_alg».proof.Proof.Spec
import Idealize.ShloMosaic.Lib.ValueLayout
import Idealize.ShloMosaic.Lib.IdealHost

noncomputable section

namespace Cert.KernelIdeal.Glue

open Idealize.ShloMosaic Idealize.ShloMosaic.ValueIdx Idealize.ShloMosaic.TcCoe Idealize.SL.Sem
open Cert.KernelIdeal Cert.KernelIdeal.Facts₀
open scoped BigOperators

/-! ## Layout operations read at an index given by coordinates -/

section Layout

variable {α : Type}

/-- A matrix cut from row `o0` and column `o1` reads, at `(i, j)`, the source at `(o0 + i, o1 + j)`. -/
theorem slice2_apply {n0 n1 m0 m1 : ℕ} (o0 o1 : ℕ) (X : (⟨2, ![n0, n1]⟩ : Shape).Idx → α)
    (h : (⟨2, ![n0, n1]⟩ : Shape).Slices ![o0, o1] ⟨2, ![m0, m1]⟩)
    (i : Fin m0) (j : Fin m1) (k0 : Fin n0) (k1 : Fin n1) (h0 : k0.val = o0 + i.val) (h1 : k1.val = o1 + j.val) :
    extractStridedSlice ⟨2, ![m0, m1]⟩ ![o0, o1] X h (ix2 i j) = X (ix2 k0 k1) :=
  extractStridedSlice_apply _ _ _ _ _ (fun ax => by
    match ax with
    | ⟨0, _⟩ => exact h0
    | ⟨1, _⟩ => exact h1)

/-- An `[n0, n1]` matrix placed on axes 0 and 2 of `[n0, 1, n1, 1]` reads, at `(a, u, c, v)`, the matrix at `(a, c)`. -/
theorem bcast02_apply {n0 n1 : ℕ} (x : (⟨2, ![n0, n1]⟩ : Shape).Idx → α)
    (h : (⟨2, ![n0, n1]⟩ : Shape).BroadcastsInDim ⟨4, ![n0, 1, n1, 1]⟩ ![0, 2])
    (a : Fin n0) (u : Fin 1) (c : Fin n1) (v : Fin 1) :
    broadcastInDim ⟨4, ![n0, 1, n1, 1]⟩ ![0, 2] h x (ix4 a u c v) = x (ix2 a c) := by
  refine broadcastInDim_apply _ h x (ix4 a u c v) (ix2 a c) fun ax => ?_
  match ax with
  | ⟨0, _⟩ =>
    show a.val = if n0 = 1 then 0 else a.val
    split
    · have := a.isLt; omega
    · rfl
  | ⟨1, _⟩ =>
    show c.val = if n1 = 1 then 0 else c.val
    split
    · have := c.isLt; omega
    · rfl

/-- An `[m0, m1]` matrix placed on axes 1 and 3 of `[1, m0, 1, m1]` reads, at `(u, b, v, d)`, the matrix at `(b, d)`. -/
theorem bcast13_apply {m0 m1 : ℕ} (x : (⟨2, ![m0, m1]⟩ : Shape).Idx → α)
    (h : (⟨2, ![m0, m1]⟩ : Shape).BroadcastsInDim ⟨4, ![1, m0, 1, m1]⟩ ![1, 3])
    (u : Fin 1) (b : Fin m0) (v : Fin 1) (d : Fin m1) :
    broadcastInDim ⟨4, ![1, m0, 1, m1]⟩ ![1, 3] h x (ix4 u b v d) = x (ix2 b d) := by
  refine broadcastInDim_apply _ h x (ix4 u b v d) (ix2 b d) fun ax => ?_
  match ax with
  | ⟨0, _⟩ =>
    show b.val = if m0 = 1 then 0 else b.val
    split
    · have := b.isLt; omega
    · rfl
  | ⟨1, _⟩ =>
    show d.val = if m1 = 1 then 0 else d.val
    split
    · have := d.isLt; omega
    · rfl

/-- `[n0, 1, n1, 1]` repeated along axes 1 and 3 to `[n0, m0, n1, m1]` reads, at `(a, b, c, d)`, the operand at
    `(a, 0, c, 0)`. -/
theorem bcastRep13_apply {n0 m0 n1 m1 : ℕ} (y : (⟨4, ![n0, 1, n1, 1]⟩ : Shape).Idx → α)
    (h : (⟨4, ![n0, 1, n1, 1]⟩ : Shape).BroadcastsInDim ⟨4, ![n0, m0, n1, m1]⟩ ![0, 1, 2, 3])
    (a : Fin n0) (b : Fin m0) (c : Fin n1) (d : Fin m1) :
    broadcastInDim ⟨4, ![n0, m0, n1, m1]⟩ ![0, 1, 2, 3] h y (ix4 a b c d) = y (ix4 a (0 : Fin 1) c (0 : Fin 1)) := by
  refine broadcastInDim_apply _ h y (ix4 a b c d) (ix4 a (0 : Fin 1) c (0 : Fin 1)) fun ax => ?_
  match ax with
  | ⟨0, _⟩ =>
    show a.val = if n0 = 1 then 0 else a.val
    split
    · have := a.isLt; omega
    · rfl
  | ⟨1, _⟩ => rfl
  | ⟨2, _⟩ =>
    show c.val = if n1 = 1 then 0 else c.val
    split
    · have := c.isLt; omega
    · rfl
  | ⟨3, _⟩ => rfl

/-- `[1, m0, 1, m1]` repeated along axes 0 and 2 to `[n0, m0, n1, m1]` reads, at `(a, b, c, d)`, the operand at
    `(0, b, 0, d)`. -/
theorem bcastRep02_apply {n0 m0 n1 m1 : ℕ} (y : (⟨4, ![1, m0, 1, m1]⟩ : Shape).Idx → α)
    (h : (⟨4, ![1, m0, 1, m1]⟩ : Shape).BroadcastsInDim ⟨4, ![n0, m0, n1, m1]⟩ ![0, 1, 2, 3])
    (a : Fin n0) (b : Fin m0) (c : Fin n1) (d : Fin m1) :
    broadcastInDim ⟨4, ![n0, m0, n1, m1]⟩ ![0, 1, 2, 3] h y (ix4 a b c d) = y (ix4 (0 : Fin 1) b (0 : Fin 1) d) := by
  refine broadcastInDim_apply _ h y (ix4 a b c d) (ix4 (0 : Fin 1) b (0 : Fin 1) d) fun ax => ?_
  match ax with
  | ⟨0, _⟩ => rfl
  | ⟨1, _⟩ =>
    show b.val = if m0 = 1 then 0 else b.val
    split
    · have := b.isLt; omega
    · rfl
  | ⟨2, _⟩ => rfl
  | ⟨3, _⟩ =>
    show d.val = if m1 = 1 then 0 else d.val
    split
    · have := d.isLt; omega
    · rfl

/-- `[n0, m0, n1, m1]` flattened to `[n0 * m0, n1 * m1]` reads, at row `a * m0 + b` and column `c * m1 + d`, the
    operand at `(a, b, c, d)`: the two indices have the same row-major position. -/
theorem flatten4_apply {n0 m0 n1 m1 R Q : ℕ} (z : (⟨4, ![n0, m0, n1, m1]⟩ : Shape).Idx → α)
    (h : (⟨4, ![n0, m0, n1, m1]⟩ : Shape).ShapeCasts ⟨2, ![R, Q]⟩) (hQ : Q = n1 * m1)
    (r : Fin R) (q : Fin Q) (a : Fin n0) (b : Fin m0) (c : Fin n1) (d : Fin m1)
    (hr : r.val = a.val * m0 + b.val) (hq : q.val = c.val * m1 + d.val) :
    shapeCast ⟨2, ![R, Q]⟩ z h (ix2 r q) = z (ix4 a b c d) :=
  shapeCast_apply z h _ _ (by
    rw [Shape.rowMajor_val_four, Shape.rowMajor_val_two]
    show ((a.val * m0 + b.val) * n1 + c.val) * m1 + d.val = r.val * Q + q.val
    rw [hr, hq, hQ]
    ring)

end Layout

section Layout2

variable {α : Type}

/-- One row `[1, b]` repeated over `a` rows reads, at `(p, k)`, the row at `k`. -/
theorem bcastRows_apply {a b : ℕ} (x : (⟨2, ![1, b]⟩ : Shape).Idx → α)
    (h : (⟨2, ![1, b]⟩ : Shape).BroadcastsInDim ⟨2, ![a, b]⟩ ![0, 1]) (p : Fin a) (k : Fin b) :
    broadcastInDim ⟨2, ![a, b]⟩ ![0, 1] h x (ix2 p k) = x (ix2 (0 : Fin 1) k) := by
  refine broadcastInDim_apply _ h x (ix2 p k) (ix2 (0 : Fin 1) k) fun ax => ?_
  match ax with
  | ⟨0, _⟩ => rfl
  | ⟨1, _⟩ =>
    show k.val = if b = 1 then 0 else k.val
    split
    · have := k.isLt; omega
    · rfl

/-- One column `[a, 1]` repeated over `b` columns reads, at `(i, j)`, the column at `i`. -/
theorem bcastCols_apply {a b : ℕ} (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) := by
  refine broadcastInDim_apply _ h x (ix2 i j) (ix2 i (0 : Fin 1)) fun ax => ?_
  match ax with
  | ⟨0, _⟩ =>
    show i.val = if a = 1 then 0 else i.val
    split
    · have := i.isLt; omega
    · rfl
  | ⟨1, _⟩ => rfl

/-- A vector `[b]` placed as the one row of `[1, b]` reads, at `(u, k)`, the vector at `k`. -/
theorem bcastVecRow_apply {b : ℕ} (x : (⟨1, ![b]⟩ : Shape).Idx → α)
    (h : (⟨1, ![b]⟩ : Shape).BroadcastsInDim ⟨2, ![1, b]⟩ ![1]) (u : Fin 1) (k : Fin b) :
    broadcastInDim ⟨2, ![1, b]⟩ ![1] h x (ix2 u k) = x (ix1 k) := by
  refine broadcastInDim_apply _ h x (ix2 u k) (ix1 k) fun ax => ?_
  match ax with
  | ⟨0, _⟩ =>
    show k.val = if b = 1 then 0 else k.val
    split
    · have := k.isLt; omega
    · rfl

/-- A vector `[a]` placed as the one column of `[a, 1]` reads, at `(i, u)`, the vector at `i`. -/
theorem bcastVecCol_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- `[a, b]` flattened to a vector reads, at position `i * b + j`, the matrix at `(i, j)`. -/
theorem flatten2_apply {a b N : ℕ} (x : (⟨2, ![a, b]⟩ : Shape).Idx → α)
    (h : (⟨2, ![a, b]⟩ : Shape).ShapeCasts ⟨1, ![N]⟩) (n : Fin N) (i : Fin a) (j : Fin b)
    (hn : n.val = i.val * b + j.val) : shapeCast ⟨1, ![N]⟩ x h (ix1 n) = x (ix2 i j) :=
  shapeCast_apply x h _ _ (by
    rw [Shape.rowMajor_val_two, Shape.rowMajor_val_one]
    show i.val * b + j.val = n.val
    exact hn.symm)

/-- `[a, b]` flattened to one row `[1, N]` reads, at `(u, i * b + j)`, the matrix at `(i, j)`. -/
theorem flatten2row_apply {a b N : ℕ} (x : (⟨2, ![a, b]⟩ : Shape).Idx → α)
    (h : (⟨2, ![a, b]⟩ : Shape).ShapeCasts ⟨2, ![1, N]⟩) (u : Fin 1) (n : Fin N) (i : Fin a) (j : Fin b)
    (hn : n.val = i.val * b + j.val) : shapeCast ⟨2, ![1, N]⟩ x h (ix2 u n) = x (ix2 i j) :=
  shapeCast_apply x h _ _ (by
    have hu : u.val = 0 := by omega
    rw [Shape.rowMajor_val_two, Shape.rowMajor_val_two]
    show i.val * b + j.val = u.val * N + n.val
    rw [hu, Nat.zero_mul, Nat.zero_add]
    exact hn.symm)

end Layout2

/-! ## The values -/

/-- The host's sum along the columns of an `[a, b]` matrix, at row `i`: the initial value plus the sum of the row. -/
theorem hostRowSum_apply {a b : ℕ} {φ : FTy} {u : Shape} (x : FVec Ideal ⟨2, ![a, b]⟩ φ) (init : u.Idx → Ideal φ)
    (h' : (⟨2, ![a, b]⟩ : Shape).ReducesTo [1] ⟨1, ![a]⟩) (hu : 0 < u.numel)
    (h : (⟨2, ![a, b]⟩ : Shape).Reduces [1] ⟨1, ![a]⟩) (i : Fin a) :
    Host.reduceAdd x init h' hu (ix1 i) = init (Shape.Idx.first hu) + ∑ k : Fin b, x (ix2 i k) := by
  rw [hostReduceAdd_apply, Ideal.hostReduceAdd_single h' h]
  refine congrArg (init (Shape.Idx.first hu) + ·) (Finset.sum_congr rfl fun k _ => ?_)
  exact congrArg x (funext fun c => Fin.ext (by match c with | ⟨0, _⟩ => rfl | ⟨1, _⟩ => rfl))

/-- The identity matrix as the program builds it — row number equal to column number, as a 1-bit word, converted — is
    `1` on the diagonal and `0` off it. -/
theorem eye_apply {n : ℕ} (hn : n ≤ 4294967296) (h : (⟨0, ![]⟩ : Shape).BroadcastsInDim ⟨2, ![n, n]⟩ ![]) (a c : Fin n) :
    (uitofp .f32 (cmpi .eq (addi (iotaInDim ⟨2, ![n, n]⟩ 32 0) (broadcastInDim ⟨2, ![n, n]⟩ ![] h (constantI ⟨0, ![]⟩ 32 0#32)))
        (iotaInDim ⟨2, ![n, n]⟩ 32 1)) : FVec Ideal ⟨2, ![n, n]⟩ .f32) (ix2 a c) = Spec.eye a.val c.val := by
  show (((IntOp.cmpi .eq (IntOp.addi (BitVec.ofNat 32 a.val)
      (broadcastInDim ⟨2, ![n, n]⟩ ![] h (constantI ⟨0, ![]⟩ 32 0#32) (ix2 a c))) (BitVec.ofNat 32 c.val)).toNat : ℝ) : EReal) = _
  rw [broadcastInDim_scalar_apply]
  show (((BitVec.ofBool (BitVec.ofNat 32 a.val + 0#32 == BitVec.ofNat 32 c.val)).toNat : ℝ) : EReal) = _
  rw [BitVec.add_zero]
  unfold Spec.eye
  by_cases hac : a.val = c.val
  · rw [if_pos hac, hac]; simp
  · rw [if_neg hac]
    have hne : (BitVec.ofNat 32 a.val == BitVec.ofNat 32 c.val) = false := by
      rw [beq_eq_false_iff_ne]
      intro e
      have e' := congrArg BitVec.toNat e
      simp only [BitVec.toNat_ofNat] at e'
      have ha := a.isLt
      have hc := c.isLt
      rw [Nat.mod_eq_of_lt (by omega), Nat.mod_eq_of_lt (by omega)] at e'
      exact hac e'
    rw [hne]; simp

/-- The block matrix `A ⊗ B` as the program builds it — `A` on axes 0 and 2, `B` on axes 1 and 3 of a rank-4 array,
    multiplied and flattened — holds `A (a, c) * B (b, d)` at row `a * m0 + b`, column `c * m1 + d`. -/
theorem kron_apply {n0 m0 n1 m1 R Q : ℕ} {φ : FTy} (A : FVec Ideal ⟨2, ![n0, n1]⟩ φ) (B : FVec Ideal ⟨2, ![m0, m1]⟩ φ)
    (h1 : (⟨2, ![n0, n1]⟩ : Shape).BroadcastsInDim ⟨4, ![n0, 1, n1, 1]⟩ ![0, 2])
    (h2 : (⟨2, ![m0, m1]⟩ : Shape).BroadcastsInDim ⟨4, ![1, m0, 1, m1]⟩ ![1, 3])
    (h3 : (⟨4, ![n0, 1, n1, 1]⟩ : Shape).BroadcastsInDim ⟨4, ![n0, m0, n1, m1]⟩ ![0, 1, 2, 3])
    (h4 : (⟨4, ![1, m0, 1, m1]⟩ : Shape).BroadcastsInDim ⟨4, ![n0, m0, n1, m1]⟩ ![0, 1, 2, 3])
    (h5 : (⟨4, ![n0, m0, n1, m1]⟩ : Shape).ShapeCasts ⟨2, ![R, Q]⟩) (hQ : Q = n1 * m1)
    (r : Fin R) (q : Fin Q) (a : Fin n0) (b : Fin m0) (c : Fin n1) (d : Fin m1)
    (hr : r.val = a.val * m0 + b.val) (hq : q.val = c.val * m1 + d.val) :
    shapeCast ⟨2, ![R, Q]⟩
        (mulf (broadcastInDim ⟨4, ![n0, m0, n1, m1]⟩ ![0, 1, 2, 3] h3 (broadcastInDim ⟨4, ![n0, 1, n1, 1]⟩ ![0, 2] h1 A))
          (broadcastInDim ⟨4, ![n0, m0, n1, m1]⟩ ![0, 1, 2, 3] h4 (broadcastInDim ⟨4, ![1, m0, 1, m1]⟩ ![1, 3] h2 B)) :
          FVec Ideal ⟨4, ![n0, m0, n1, m1]⟩ φ) h5 (ix2 r q)
      = A (ix2 a c) * B (ix2 b d) := by
  rw [flatten4_apply _ h5 hQ r q a b c d hr hq, mulf_apply, bcastRep13_apply, bcast02_apply, bcastRep02_apply, bcast13_apply]

/-! ## The six arrays as terms over the two arguments, read at an index -/

section Reads

variable [Facts₀] (X : Cert.Spec.XArr) (S : Cert.Spec.SArr)

/-- The 16 × 16 identity matrix, as the program builds it. -/
abbrev eyeM : FVec Ideal S16x16 .f32 :=
  uitofp .f32 (cmpi .eq (addi (iotaInDim S16x16 32 0) (broadcastInDim S16x16 ![] bcast_S_S16x16 (constantI S_ 32 0#32)))
    (iotaInDim S16x16 32 1))

theorem eyeM_apply (a c : Fin 16) : eyeM (ix2 a c) = Cert.Spec.eye a.val c.val :=
  eye_apply (by norm_num) bcast_S_S16x16 a c

/-- The graphs' features, each graph flattened to one row: lane `r` is node `r / 32`, feature `r % 32`. -/
abbrev x2T : FVec Ideal S16384x512 .f32 := shapeCast S16384x512 X shapeCasts_S16384x16x32_S16384x512

theorem x2T_apply (g : Fin 16384) (r : Fin 512) : x2T X (ix2 g r) = Cert.Spec.x2 X g r := by
  unfold Cert.Spec.x2
  refine shapeCast_apply (s := S16384x16x32) (t := S16384x512) X _ _ _ ?_
  rw [Shape.rowMajor_val_three, Shape.rowMajor_val_two]
  show (g.val * 16 + r.val / 32) * 32 + r.val % 32 = g.val * 512 + r.val
  omega

/-- `I₁₆ ⊗ w1`, rounded to bf16 (no change at the ideal values). -/
abbrev w1kT : FVec Ideal S512x512 .bf16 :=
  truncf .bf16
    (shapeCast S512x512
      (mulf
        (broadcastInDim S16x32x16x32 ![0, 1, 2, 3] bcast_S16x1x16x1_S16x32x16x32_0_1_2_3
          (broadcastInDim S16x1x16x1 ![0, 2] bcast_S16x16_S16x1x16x1_0_2 eyeM))
        (broadcastInDim S16x32x16x32 ![0, 1, 2, 3] bcast_S1x32x1x32_S16x32x16x32_0_1_2_3
          (broadcastInDim S1x32x1x32 ![1, 3] bcast_S32x32_S1x32x1x32_1_3
            (extractStridedSlice S32x32 ![0, 0] S slices_S96x32_S32x32_0_0))) : FVec Ideal S16x32x16x32 .f32)
      shapeCasts_S16x32x16x32_S512x512 : FVec Ideal S512x512 .f32)
    bitsLt_bf16_f32

theorem w1kT_apply (r col : Fin 512) : w1kT S (ix2 r col) = Cert.Spec.w1k S r col := by
  have hr := r.isLt
  have hc := col.isLt
  unfold w1kT
  rw [truncf_apply,
    kron_apply _ _ _ _ _ _ _ rfl r col (⟨r.val / 32, by omega⟩ : Fin 16) (⟨r.val % 32, by omega⟩ : Fin 32)
      (⟨col.val / 32, by omega⟩ : Fin 16) (⟨col.val % 32, by omega⟩ : Fin 32)
      (by show r.val = r.val / 32 * 32 + r.val % 32; omega) (by show col.val = col.val / 32 * 32 + col.val % 32; omega),
    eyeM_apply,
    slice2_apply 0 0 S _ (⟨r.val % 32, by omega⟩ : Fin 32) (⟨col.val % 32, by omega⟩ : Fin 32)
      (⟨r.val % 32, by omega⟩ : Fin 96) (⟨col.val % 32, by omega⟩ : Fin 32) (Nat.zero_add _).symm (Nat.zero_add _).symm]
  rfl

/-- `pmᵀ ⊗ w2`, rounded to bf16 (no change at the ideal values). -/
abbrev m2T : FVec Ideal S512x128 .bf16 :=
  truncf .bf16
    (shapeCast S512x128
      (mulf
        (broadcastInDim S16x32x16x8 ![0, 1, 2, 3] bcast_S16x1x16x1_S16x32x16x8_0_1_2_3
          (broadcastInDim S16x1x16x1 ![0, 2] bcast_S16x16_S16x1x16x1_0_2
            (transpose S16x16 [1, 0] (extractStridedSlice S16x16 ![80, 0] S slices_S96x32_S16x16_80_0)
              transposes_S16x16_S16x16_1_0)))
        (broadcastInDim S16x32x16x8 ![0, 1, 2, 3] bcast_S1x32x1x8_S16x32x16x8_0_1_2_3
          (broadcastInDim S1x32x1x8 ![1, 3] bcast_S32x8_S1x32x1x8_1_3
            (extractStridedSlice S32x8 ![40, 0] S slices_S96x32_S32x8_40_0))) : FVec Ideal S16x32x16x8 .f32)
      shapeCasts_S16x32x16x8_S512x128 : FVec Ideal S512x128 .f32)
    bitsLt_bf16_f32

theorem m2T_apply (r : Fin 512) (q : Fin 128) : m2T S (ix2 r q) = Cert.Spec.m2 S r q := by
  have hr := r.isLt
  have hq := q.isLt
  unfold m2T
  rw [truncf_apply,
    kron_apply _ _ _ _ _ _ _ rfl r q (⟨r.val / 32, by omega⟩ : Fin 16) (⟨r.val % 32, by omega⟩ : Fin 32)
      (⟨q.val / 8, by omega⟩ : Fin 16) (⟨q.val % 8, by omega⟩ : Fin 8)
      (by show r.val = r.val / 32 * 32 + r.val % 32; omega) (by show q.val = q.val / 8 * 8 + q.val % 8; omega),
    transpose_ix2_apply,
    slice2_apply 80 0 S _ (⟨q.val / 8, by omega⟩ : Fin 16) (⟨r.val / 32, by omega⟩ : Fin 16)
      (⟨80 + q.val / 8, by omega⟩ : Fin 96) (⟨r.val / 32, by omega⟩ : Fin 32) rfl (Nat.zero_add _).symm,
    slice2_apply 40 0 S _ (⟨r.val % 32, by omega⟩ : Fin 32) (⟨q.val % 8, by omega⟩ : Fin 8)
      (⟨40 + r.val % 32, by omega⟩ : Fin 96) (⟨q.val % 8, by omega⟩ : Fin 32) rfl (Nat.zero_add _).symm]
  rfl

/-- `I₁₆ ⊗ 1₈ₓ₈`, rounded to bf16 (no change at the ideal values). -/
abbrev gmT : FVec Ideal S128x128 .bf16 :=
  truncf .bf16
    (shapeCast S128x128
      (mulf
        (broadcastInDim S16x8x16x8 ![0, 1, 2, 3] bcast_S16x1x16x1_S16x8x16x8_0_1_2_3
          (broadcastInDim S16x1x16x1 ![0, 2] bcast_S16x16_S16x1x16x1_0_2 eyeM))
        (broadcastInDim S16x8x16x8 ![0, 1, 2, 3] bcast_S1x8x1x8_S16x8x16x8_0_1_2_3
          (broadcastInDim S1x8x1x8 ![1, 3] bcast_S8x8_S1x8x1x8_1_3
            (broadcastInDim S8x8 ![] bcast_S_S8x8 (constant (F := Ideal) S_ .f32 0x3F800000#32)))) : FVec Ideal S16x8x16x8 .f32)
      shapeCasts_S16x8x16x8_S128x128 : FVec Ideal S128x128 .f32)
    bitsLt_bf16_f32

theorem gmT_apply (r q : Fin 128) : gmT (ix2 r q) = Cert.Spec.gm r q := by
  have hr := r.isLt
  have hq := q.isLt
  unfold gmT
  rw [truncf_apply,
    kron_apply _ _ _ _ _ _ _ rfl r q (⟨r.val / 8, by omega⟩ : Fin 16) (⟨r.val % 8, by omega⟩ : Fin 8)
      (⟨q.val / 8, by omega⟩ : Fin 16) (⟨q.val % 8, by omega⟩ : Fin 8)
      (by show r.val = r.val / 8 * 8 + r.val % 8; omega) (by show q.val = q.val / 8 * 8 + q.val % 8; omega),
    eyeM_apply, broadcastInDim_scalar_apply, constant_apply, Ideal.ofBits_one_f32]
  rfl

/-- The first bias tiled over the 16 nodes, one row repeated 8 times. -/
abbrev b1tT : FVec Ideal S8x512 .f32 :=
  broadcastInDim S8x512 ![0, 1] bcast_S1x512_S8x512_0_1
    (broadcastInDim S1x512 ![1] bcast_S512_S1x512_1
      (shapeCast S512
        (broadcastInDim S16x32 ![0, 1] bcast_S1x32_S16x32_0_1
          (shapeCast S1x32
            (shapeCast S32 (extractStridedSlice S1x32 ![32, 0] S slices_S96x32_S1x32_32_0) shapeCasts_S1x32_S32)
            shapeCasts_S32_S1x32))
        shapeCasts_S16x32_S512))

theorem b1tT_apply (a : Fin 8) (col : Fin 512) : b1tT S (ix2 a col) = Cert.Spec.b1t S col := by
  have hc := col.isLt
  unfold b1tT
  rw [bcastRows_apply, bcastVecRow_apply,
    flatten2_apply _ _ col (⟨col.val / 32, by omega⟩ : Fin 16) (⟨col.val % 32, by omega⟩ : Fin 32)
      (by show col.val = col.val / 32 * 32 + col.val % 32; omega),
    bcastRows_apply, shapeCast_a_1a_apply, shapeCast_1a_a_apply,
    slice2_apply 32 0 S _ (0 : Fin 1) (⟨col.val % 32, by omega⟩ : Fin 32)
      (⟨32, by omega⟩ : Fin 96) (⟨col.val % 32, by omega⟩ : Fin 32) rfl (Nat.zero_add _).symm]
  rfl

/-- The second bias after propagation — the row sums of `pm` times `b2` — one row repeated 8 times. -/
abbrev b2tT : FVec Ideal S8x128 .f32 :=
  broadcastInDim S8x128 ![0, 1] bcast_S1x128_S8x128_0_1
    (shapeCast S1x128
      (mulf
        (broadcastInDim S16x8 ![0, 1] bcast_S16x1_S16x8_0_1
          (broadcastInDim S16x1 ![0] bcast_S16_S16x1_0
            (Host.reduceAdd (extractStridedSlice S16x16 ![80, 0] S slices_S96x32_S16x16_80_0 : FVec Ideal S16x16 .f32)
              (constant (F := Ideal) S_ .f32 0x00000000#32) reducesTo_S16x16_S16_d1 h_S_)))
        (broadcastInDim S16x8 ![0, 1] bcast_S1x8_S16x8_0_1
          (broadcastInDim S1x8 ![1] bcast_S8_S1x8_1
            (shapeCast S8 (extractStridedSlice S1x8 ![72, 0] S slices_S96x32_S1x8_72_0) shapeCasts_S1x8_S8))) :
        FVec Ideal S16x8 .f32)
      shapeCasts_S16x8_S1x128)

theorem b2tT_apply (a : Fin 8) (q : Fin 128) : b2tT S (ix2 a q) = Cert.Spec.b2t S q := by
  have hq := q.isLt
  unfold b2tT
  rw [bcastRows_apply,
    flatten2row_apply _ _ (0 : Fin 1) q (⟨q.val / 8, by omega⟩ : Fin 16) (⟨q.val % 8, by omega⟩ : Fin 8)
      (by show q.val = q.val / 8 * 8 + q.val % 8; omega),
    mulf_apply, bcastCols_apply, bcastVecCol_apply, hostRowSum_apply _ _ _ _ (by decide),
    bcastRows_apply, bcastVecRow_apply, shapeCast_1a_a_apply,
    slice2_apply 72 0 S _ (0 : Fin 1) (⟨q.val % 8, by omega⟩ : Fin 8)
      (⟨72, by omega⟩ : Fin 96) (⟨q.val % 8, by omega⟩ : Fin 32) rfl (Nat.zero_add _).symm,
    constant_apply, Ideal.ofBits_zero_f32, zero_add]
  unfold Cert.Spec.b2t
  refine congrArg₂ (· * ·) (Finset.sum_congr rfl fun k _ => ?_) rfl
  exact slice2_apply 80 0 S _ (⟨q.val / 8, by omega⟩ : Fin 16) k
    (⟨80 + q.val / 8, by omega⟩ : Fin 96) (⟨k.val, by have := k.isLt; omega⟩ : Fin 32) rfl (Nat.zero_add _).symm

end Reads

/-! ## The arrays the region finds -/

section Found

variable (m : (ℓ : Loc nD τ sig) → Buf (Elt Ideal) ℓ) (c : Dev nD)

/-- The graphs' features as the region finds them: the first argument, each graph one row of 512 lanes. -/
theorem V_x2 (g : Fin 16384) (r : Fin 512) :
    (Gen.V m c main_call0_v49 : S16384x512.Idx → EReal) (ix2 g r) = Cert.Spec.x2 (m ((c : Thread nD τ).loc main_arg0) : Cert.Spec.XArr) g r := by
  have e : (Gen.V m c main_call0_v49 : S16384x512.Idx → EReal) = x2T (m ((c : Thread nD τ).loc main_arg0) : Cert.Spec.XArr) := by
    show StableHlo.after Gen.hostOps0 (fun b => m (c, b)) (Proc.devRef .tc main_call0_v49) = _
    after_results_simp; rfl
  rw [e]
  exact x2T_apply _ g r

/-- The first layer's block matrix as the region finds it. -/
theorem V_w1k (r col : Fin 512) :
    (Gen.V m c main_call0_v19 : S512x512.Idx → EReal) (ix2 r col) = Cert.Spec.w1k (m ((c : Thread nD τ).loc main_arg1) : Cert.Spec.SArr) r col := by
  have e : (Gen.V m c main_call0_v19 : S512x512.Idx → EReal) = w1kT (m ((c : Thread nD τ).loc main_arg1) : Cert.Spec.SArr) := by
    show StableHlo.after Gen.hostOps0 (fun b => m (c, b)) (Proc.devRef .tc main_call0_v19) = _
    after_results_simp; rfl
  rw [e]
  exact w1kT_apply _ r col

/-- The tiled first bias as the region finds it. -/
theorem V_b1t (a : Fin 8) (col : Fin 512) :
    (Gen.V m c main_call0_v32 : S8x512.Idx → EReal) (ix2 a col) = Cert.Spec.b1t (m ((c : Thread nD τ).loc main_arg1) : Cert.Spec.SArr) col := by
  have e : (Gen.V m c main_call0_v32 : S8x512.Idx → EReal) = b1tT (m ((c : Thread nD τ).loc main_arg1) : Cert.Spec.SArr) := by
    show StableHlo.after Gen.hostOps0 (fun b => m (c, b)) (Proc.devRef .tc main_call0_v32) = _
    after_results_simp; rfl
  rw [e]
  exact b1tT_apply _ a col

/-- The second layer's block matrix, the propagation folded in, as the region finds it. -/
theorem V_m2 (r : Fin 512) (q : Fin 128) :
    (Gen.V m c main_call0_v27 : S512x128.Idx → EReal) (ix2 r q) = Cert.Spec.m2 (m ((c : Thread nD τ).loc main_arg1) : Cert.Spec.SArr) r q := by
  have e : (Gen.V m c main_call0_v27 : S512x128.Idx → EReal) = m2T (m ((c : Thread nD τ).loc main_arg1) : Cert.Spec.SArr) := by
    show StableHlo.after Gen.hostOps0 (fun b => m (c, b)) (Proc.devRef .tc main_call0_v27) = _
    after_results_simp; rfl
  rw [e]
  exact m2T_apply _ r q

/-- The propagated second bias as the region finds it. -/
theorem V_b2t (a : Fin 8) (q : Fin 128) :
    (Gen.V m c main_call0_v40 : S8x128.Idx → EReal) (ix2 a q) = Cert.Spec.b2t (m ((c : Thread nD τ).loc main_arg1) : Cert.Spec.SArr) q := by
  have e : (Gen.V m c main_call0_v40 : S8x128.Idx → EReal) = b2tT (m ((c : Thread nD τ).loc main_arg1) : Cert.Spec.SArr) := by
    show StableHlo.after Gen.hostOps0 (fun b => m (c, b)) (Proc.devRef .tc main_call0_v40) = _
    after_results_simp; rfl
  rw [e]
  exact b2tT_apply _ a q

/-- The group-sum matrix as the region finds it. -/
theorem V_gm (r q : Fin 128) :
    (Gen.V m c main_call0_v48 : S128x128.Idx → EReal) (ix2 r q) = Cert.Spec.gm r q := by
  have e : (Gen.V m c main_call0_v48 : S128x128.Idx → EReal) = gmT := by
    show StableHlo.after Gen.hostOps0 (fun b => m (c, b)) (Proc.devRef .tc main_call0_v48) = _
    after_results_simp; rfl
  rw [e]
  exact gmT_apply r q

end Found

end Cert.KernelIdeal.Glue

end
-- ==== Proof.LibMatmulPlain.lean ====
/-
  A plain matrix product read at an index, over the extended reals.

  For the dimension numbers of an [M, K] by [K, N] product with no batch axis (the left operand contracted on its
  second axis, the right operand on its first), the matrix unit's product at the entry (p, q) is the accumulator's
  entry plus the sum over k < K of A (p, k) * B (k, q); into a zero accumulator it is that sum alone. The extents
  M, K, N are arbitrary, and so are the operands' float formats (a change of format is the identity here).
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

variable {M K N : Nat}

/-- The contraction of a plain product has one axis, -/
theorem contr_rank : (DotDims.plain M K N).contr.rank = 1 := rfl
/-- of extent K. -/
theorem contr_size : (DotDims.plain M K N).contr.size ⟨0, by rw [contr_rank]; exact Nat.one_pos⟩ = K := rfl

/-- The left operand is read at row `j 0` and at the contraction position as its column. -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  funext a
  apply Fin.ext
  match a with
  | ⟨0, _⟩ => rfl
  | ⟨1, _⟩ =>
    refine ((DotDims.plain M K N).lhsIdx_val_of_single (cl := 1) rfl j _).trans ?_
    exact contrEquiv1_symm_val (DotDims.plain M K N) K contr_rank contr_size k

/-- The right operand is read at the contraction position as its row and at column `j 1`. -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  funext a
  apply Fin.ext
  match a with
  | ⟨0, _⟩ =>
    refine ((DotDims.plain M K N).rhsIdx_val_of_single (cr := 0) rfl j _).trans ?_
    exact contrEquiv1_symm_val (DotDims.plain M K N) K contr_rank contr_size k
  | ⟨1, _⟩ => rfl

/-- A plain product into any accumulator, at an entry: the accumulator's entry plus the row-by-column sum. -/
theorem matmul_apply {φ₁ φ₂ : FTy} (prec : Option ContractPrecision) (A : FVec Ideal ⟨2, ![M, K]⟩ φ₁)
    (B : FVec Ideal ⟨2, ![K, N]⟩ φ₂) (acc : FVec Ideal ⟨2, ![M, N]⟩ .f32) (j : (⟨2, ![M, N]⟩ : Shape).Idx) :
    matmul (DotDims.plain M K N) prec A B acc j = acc j + ∑ k : Fin K, A (ix2 (j 0) k) * B (ix2 k (j 1)) := by
  refine (Ideal.matmul_apply (DotDims.plain M K N) prec A B acc j).trans ?_
  congr 1
  rw [← Equiv.sum_comp (contrEquiv1 (DotDims.plain M K N) K contr_rank contr_size).symm]
  exact Finset.sum_congr rfl fun k _ => by rw [lhsIdx_eq, rhsIdx_eq]; rfl

/-- Into the zero accumulator: the row-by-column sum alone. -/
theorem matmul_zero_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    matmul (DotDims.plain M K N) prec A B (constant (F := Ideal) ⟨2, ![M, N]⟩ .f32 0x00000000#32) j
      = ∑ k : Fin K, A (ix2 (j 0) k) * B (ix2 k (j 1)) := by
  rw [matmul_apply]
  show Ideal.ofBits .f32 0x00000000#32 + _ = _
  rw [Ideal.ofBits_zero_f32, zero_add]

end Idealize.ShloMosaic.MatmulPlain

end
-- ==== Proof.LibRowReduce.lean ====
/-
  A matrix reduced along one axis, read at an index, at the ideal values.

  For an `[a, b]` matrix `src`: the reduction by `max` along the columns (axis 1) is, at row `i`, the fold of `max`
  from the accumulator's value over `src (i, k)`, `k < b`; the reduction by `+` along the columns is, at row `i`,
  `Σ_k src (i, k)`; and the reduction by `+` along the rows (axis 0) is, at column `j`, `Σ_i src (i, j)`. Arbitrary
  extents and any float format. (The library states these over the reduced shape's own index `h.lift j k`; here the
  index is spelt by its two coordinates.)
-/
import Idealize.ShloMosaic.PureOps.Ideal.Laws
import Idealize.ShloMosaic.Lib.ValueIdx

noncomputable section

namespace Idealize.ShloMosaic.RowReduce

open Idealize.ShloMosaic Idealize.ShloMosaic.ValueIdx

variable {a b : ℕ} {φ : FTy}

/-- The row maxima: at row `i`, the fold of `max` over the row's entries from the accumulator's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  refine congrArg (Finset.fold max (Ideal.ofBits φ acc) · (Finset.univ : Finset (Fin b))) (funext fun k => ?_)
  exact congrArg src (funext fun c => Fin.ext (by match c with | ⟨0, _⟩ => rfl | ⟨1, _⟩ => rfl))

/-- The row sums: at row `i`, the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => ?_
  exact congrArg src (funext fun c => Fin.ext (by match c with | ⟨0, _⟩ => rfl | ⟨1, _⟩ => rfl))

/-- The column sums: at column `j`, the sum of the column's entries. -/
theorem colSum_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun c => Fin.ext (by match c with | ⟨0, _⟩ => rfl | ⟨1, _⟩ => rfl))

end Idealize.ShloMosaic.RowReduce

end
-- ==== Proof.LibKeepdims.lean ====
/-
  The column forms a sum that keeps its reduced axis goes through, read at an index.

  A row sum that keeps the reduced axis as a unit axis (`keepdims`) leaves a vector of length `a`, casts it to the
  column `[a, 1]`, and broadcasts the column across `b` lanes to `[a, b]`. Read at an index: the column at `(i, u)` is
  the vector at `i`, and the broadcast at `(i, j)` is the column at `(i, 0)`, for arbitrary extents and any element
  type. (The leading-unit-axis casts and the row broadcast `[1, b] → [a, b]` are the library's.)
-/
import Idealize.ShloMosaic.Lib.Pipeline.Value
import Idealize.ShloMosaic.Lib.ValueIdx

namespace Idealize.ShloMosaic.Keepdims

open Idealize.ShloMosaic Idealize.ShloMosaic.ValueIdx

variable {α : Type}

/-- A vector of length `a` cast to the column `[a, 1]` reads, at `(i, u)`, the vector at `i`: the two indices have
    the same row-major position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`: the row coordinate is
    kept (also when `a = 1`, where it can only be `0`), the unit axis is read at `0`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.Keepdims
-- ==== Proof.KerPay.lean ====
/-
  The kernel body's result at one entry, as a formula over the six blocks it loads.

  One grid point handles 1024 flattened graphs. With `v0` the block of 1024 rows of 512 lanes, `v3` the 512 x 512
  first-layer matrix, `v6` its bias row, `v13` the 512 x 128 second-layer matrix, `v16` its bias row and `v26` the
  128 x 128 group-sum matrix, the body computes, at row `g` and lane `q`:
    hidden  h(g, c) = max (Σ_r v0(g, r) · v3(r, c) + v6(0, c)) 0,
    scores  z(g, q) = Σ_r h(g, r) · v13(r, q) + v16(0, q),
    the row's maximum  M(g) = max_q z(g, q),
    and  (z(g, q) − M(g)) − log (Σ_q' exp (z(g, q') − M(g)) · v26(q', q)).
  A change of float format is the identity on the extended reals, and a matrix product into a zero accumulator is the
  plain row-by-column sum.
-/
import proofs.«139694_g2000206686455459_pallasbulk_945_2_alg».proof.Proof.Gen.KernelIdeal.Frame
import proofs.«139694_g2000206686455459_pallasbulk_945_2_alg».proof.Proof.LibMatmulPlain
import proofs.«139694_g2000206686455459_pallasbulk_945_2_alg».proof.Proof.LibRowReduce
import proofs.«139694_g2000206686455459_pallasbulk_945_2_alg».proof.Proof.LibKeepdims
import Idealize.ShloMosaic.Lib.Pipeline.Value
import Idealize.ShloMosaic.Lib.ValueIdx
import Idealize.ShloMosaic.Lib.ValueLayout

noncomputable section

open scoped BigOperators

namespace Cert.KernelIdeal.Pay

open Cert.KernelIdeal Cert.KernelIdeal.Gen Idealize.ShloMosaic Idealize.ShloMosaic.ValueIdx

/-! ## The formula -/

section Formula

variable (v0 : Vec Ideal S1024x512 .f32) (v3 : Vec Ideal S512x512 .bf16) (v6 : Vec Ideal S1x512 .f32)
  (v13 : Vec Ideal S512x128 .bf16) (v16 : Vec Ideal S1x128 .f32) (v26 : Vec Ideal S128x128 .bf16)

/-- Hidden features of row `g`: the rectified first layer. -/
def hP (g : Fin 1024) (col : Fin 512) : EReal :=
  max ((∑ r : Fin 512, v0 (ix2 g r) * v3 (ix2 r col)) + v6 (ix2 (0 : Fin 1) col)) 0
/-- Scores of row `g`: the second layer, propagation folded in. -/
def zP (g : Fin 1024) (q : Fin 128) : EReal :=
  (∑ r : Fin 512, hP v0 v3 v6 g r * v13 (ix2 r q)) + v16 (ix2 (0 : Fin 1) q)
/-- The largest score of row `g`. -/
def mP (g : Fin 1024) : EReal :=
  (Finset.univ : Finset (Fin 128)).fold max ⊥ (fun q => zP v0 v3 v6 v13 v16 g q)
/-- The body's entry at row `g`, lane `q`. -/
def outP (g : Fin 1024) (q : Fin 128) : EReal :=
  (zP v0 v3 v6 v13 v16 g q - mP v0 v3 v6 v13 v16 g)
    - Ideal.log (∑ q' : Fin 128, Ideal.exp (zP v0 v3 v6 v13 v16 g q' - mP v0 v3 v6 v13 v16 g) * v26 (ix2 q' q))

end Formula

/-! ## The operations that are not entrywise, each read at an entry -/

/-- The f32 word `0xFF800000` is `-∞`, the bottom of the extended reals. -/
theorem word_neg_inf : Ideal.ofBits .f32 0xFF800000#32 = ⊥ := by simp [Ideal.ofBits, Ideal.ieee]

theorem exp_apply {s : Shape} (a : FVec Ideal s .f32) (i : s.Idx) : exp a i = Ideal.exp (a i) := rfl
theorem log_apply {s : Shape} (a : FVec Ideal s .f32) (i : s.Idx) : log a i = Ideal.log (a i) := rfl

/-- The first product: 1024 x 512 by 512 x 512. -/
theorem mm1_apply (A : FVec Ideal S1024x512 .bf16) (B : FVec Ideal S512x512 .bf16) (g : Fin 1024) (col : Fin 512) :
    matmul dot_S1024x512_S512x512_S1024x512_1_0_0_1_n_n none A B (constant (F := Ideal) S1024x512 .f32 0x00000000#32) (ix2 g col)
      = ∑ r : Fin 512, A (ix2 g r) * B (ix2 r col) :=
  MatmulPlain.matmul_zero_apply (M := 1024) (K := 512) (N := 512) none A B (ix2 g col)

/-- The second product: 1024 x 512 by 512 x 128. -/
theorem mm2_apply (A : FVec Ideal S1024x512 .bf16) (B : FVec Ideal S512x128 .bf16) (g : Fin 1024) (q : Fin 128) :
    matmul dot_S1024x512_S512x128_S1024x128_1_0_0_1_n_n none A B (constant (F := Ideal) S1024x128 .f32 0x00000000#32) (ix2 g q)
      = ∑ r : Fin 512, A (ix2 g r) * B (ix2 r q) :=
  MatmulPlain.matmul_zero_apply (M := 1024) (K := 512) (N := 128) none A B (ix2 g q)

/-- The third product: 1024 x 128 by 128 x 128. -/
theorem mm3_apply (A : FVec Ideal S1024x128 .bf16) (B : FVec Ideal S128x128 .bf16) (g : Fin 1024) (q : Fin 128) :
    matmul dot_S1024x128_S128x128_S1024x128_1_0_0_1_n_n none A B (constant (F := Ideal) S1024x128 .f32 0x00000000#32) (ix2 g q)
      = ∑ r : Fin 128, A (ix2 g r) * B (ix2 r q) :=
  MatmulPlain.matmul_zero_apply (M := 1024) (K := 128) (N := 128) none A B (ix2 g q)

/-- A bias row broadcast over the 1024 rows reads the row's entry of that lane. -/
theorem bias512_apply (w : FVec Ideal S1x512 .f32) (g : Fin 1024) (col : Fin 512) :
    broadcastTo S1024x512 w broadcasts_S1x512_S1024x512 (ix2 g col) = w (ix2 (0 : Fin 1) col) := by
  refine broadcastTo_apply w _ (ix2 g col) (ix2 (0 : Fin 1) col) fun ax => ?_
  match ax with
  | ⟨0, _⟩ => rfl
  | ⟨1, _⟩ => rfl

theorem bias128_apply (w : FVec Ideal S1x128 .f32) (g : Fin 1024) (q : Fin 128) :
    broadcastTo S1024x128 w broadcasts_S1x128_S1024x128 (ix2 g q) = w (ix2 (0 : Fin 1) q) := by
  refine broadcastTo_apply w _ (ix2 g q) (ix2 (0 : Fin 1) q) fun ax => ?_
  match ax with
  | ⟨0, _⟩ => rfl
  | ⟨1, _⟩ => rfl

/-- The row maximum kept as a column and broadcast back over the 128 lanes reads the row's maximum. -/
theorem rowmax_apply (src : FVec Ideal S1024x128 .f32) (hφ : FKind.Formats FTy.f32)
    (hacc : (0xFF800000#32 : BitVec 32) = 0xFF800000#32) (g : Fin 1024) (q : Fin 128) :
    broadcastTo S1024x128 (shapeCast S1024x1
        (multiReduction .maximumf [1] S1024 src 0xFF800000#32 reduces_S1024x128_S1024 hφ hacc)
        shapeCasts_S1024_S1024x1) broadcasts_S1024x1_S1024x128 (ix2 g q)
      = (Finset.univ : Finset (Fin 128)).fold max ⊥ (fun k => src (ix2 g k)) := by
  rw [Keepdims.broadcastTo_a1_ab_apply, Keepdims.shapeCast_a_a1_apply]
  refine (RowReduce.rowMax_apply (a := 1024) (b := 128) src 0xFF800000#32 reduces_S1024x128_S1024 hφ hacc g).trans ?_
  rw [word_neg_inf]

/-! ## The body's result at an entry -/

/-- From the scores `Z` on: subtract each row's maximum, exponentiate, take the group sums by the product with `w`,
    and subtract the logarithm. -/
theorem tail_apply (Z : FVec Ideal S1024x128 .f32) (w : FVec Ideal S128x128 .bf16) (hφ : FKind.Formats FTy.f32)
    (hacc : (0xFF800000#32 : BitVec 32) = 0xFF800000#32) (g : Fin 1024) (q : Fin 128) :
    subf
      (subf Z (broadcastTo S1024x128 (shapeCast S1024x1
        (multiReduction .maximumf [1] S1024 Z 0xFF800000#32 reduces_S1024x128_S1024 hφ hacc)
        shapeCasts_S1024_S1024x1) broadcasts_S1024x1_S1024x128))
      (log (matmul dot_S1024x128_S128x128_S1024x128_1_0_0_1_n_n none
        (truncf .bf16 (exp (subf Z (broadcastTo S1024x128 (shapeCast S1024x1
          (multiReduction .maximumf [1] S1024 Z 0xFF800000#32 reduces_S1024x128_S1024 hφ hacc)
          shapeCasts_S1024_S1024x1) broadcasts_S1024x1_S1024x128))) bitsLt_bf16_f32)
        w (constant (F := Ideal) S1024x128 .f32 0x00000000#32))) (ix2 g q)
    = (Z (ix2 g q) - (Finset.univ : Finset (Fin 128)).fold max ⊥ (fun k => Z (ix2 g k)))
        - Ideal.log (∑ q' : Fin 128,
            Ideal.exp (Z (ix2 g q') - (Finset.univ : Finset (Fin 128)).fold max ⊥ (fun k => Z (ix2 g k))) * w (ix2 q' q)) := by
  simp only [subf_apply, log_apply, mm3_apply, truncf_apply, exp_apply, rowmax_apply Z hφ hacc g]

theorem pay_apply (v0 : Vec Ideal S1024x512 .f32) (v3 : Vec Ideal S512x512 .bf16) (v6 : Vec Ideal S1x512 .f32)
    (v13 : Vec Ideal S512x128 .bf16) (v16 : Vec Ideal S1x128 .f32) (v26 : Vec Ideal S128x128 .bf16)
    (g : Fin 1024) (q : Fin 128) :
    k0_pay1 v0 v3 v6 v13 v16 v26 (ix2 g q) = outP v0 v3 v6 v13 v16 v26 g q := by
  unfold k0_pay1
  simp only [shapeCast_self]
  refine (tail_apply _ _ _ _ g q).trans ?_
  simp only [addf_apply, mm2_apply, truncf_apply, maximumf_apply, mm1_apply, bias128_apply, bias512_apply,
    broadcast_apply, Ideal.ofBits_def, Ideal.ofBits_zero_f32]
  unfold outP mP zP hP
  rfl

end Cert.KernelIdeal.Pay

end
-- ==== Proof.KerValue.lean ====
/-
  The kernel's result array as one function of the two arguments.

  The region runs over 16 grid points; point `t` handles rows `1024 t … 1024 t + 1023` of the 16384 x 512 array of
  flattened graphs and writes the same rows of the 16384 x 128 output; the five constant matrices are staged whole at
  every point. Given what the host operations before the region leave in the six input arrays (`GlueAt`), the block
  that point `t` writes back is block `t` of `K2`, the array whose entry (b, q) is the specification's `kerOut` of
  graph `b` at lane `q`; the 16 blocks tile the output, so the output array ends equal to `K2`; and the reshape
  after the region reads lane `8 i + c` of row `b` as node `i`, class `c` of graph `b`: the specification's `Gker`.
-/
import proofs.«139694_g2000206686455459_pallasbulk_945_2_alg».proof.Proof.Gen.KernelIdeal.Frame
import proofs.«139694_g2000206686455459_pallasbulk_945_2_alg».proof.Proof.KerPay
import proofs.«139694_g2000206686455459_pallasbulk_945_2_alg».proof.Proof.Spec
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.KerValue

open Cert.KernelIdeal Cert.KernelIdeal.Gen Idealize.ShloMosaic Idealize.ShloMosaic.TcCoe Idealize.SL.Sem
open Idealize.ShloMosaic.ValueIdx
open Idealize.ShloMosaic.Pipeline (Dat)

/-! ## One block -/

section Block

variable (x0 : Vec Ideal S1024x512 .f32) (x1 : Vec Ideal S512x512 .bf16) (x2 : Vec Ideal S8x512 .f32)
  (x3 : Vec Ideal S512x128 .bf16) (x4 : Vec Ideal S8x128 .f32) (x5 : Vec Ideal S128x128 .bf16)

theorem hz : (![0, 0] : Fin 2 → Nat) = fun _ => 0 := funext fun a => by fin_cases a <;> rfl

/-- The bias rows are loaded as the first row of their 8-row blocks. -/
theorem ld_row512 (col : Fin 512) : View.ld x2 r0_2 (ix2 (0 : Fin 1) col) = x2 (ix2 (0 : Fin 8) col) :=
  congrArg x2 (funext fun a => Fin.ext (by match a with | ⟨0, _⟩ => rfl | ⟨1, _⟩ => show 0 + 1 * col.val = col.val; omega))
theorem ld_row128 (q : Fin 128) : View.ld x4 r0_4 (ix2 (0 : Fin 1) q) = x4 (ix2 (0 : Fin 8) q) :=
  congrArg x4 (funext fun a => Fin.ext (by match a with | ⟨0, _⟩ => rfl | ⟨1, _⟩ => show 0 + 1 * q.val = q.val; omega))

/-- The body's formula over blocks that hold the specification's matrices is the specification's entry. -/
theorem outP_eq_kerOut (X : Cert.Spec.XArr) (S : Cert.Spec.SArr) (G : Fin 16384)
    (v0 : Vec Ideal S1024x512 .f32) (v3 : Vec Ideal S512x512 .bf16) (v6 : Vec Ideal S1x512 .f32)
    (v13 : Vec Ideal S512x128 .bf16) (v16 : Vec Ideal S1x128 .f32) (v26 : Vec Ideal S128x128 .bf16)
    (g : Fin 1024) (q : Fin 128)
    (h0 : ∀ r : Fin 512, v0 (ix2 g r) = Cert.Spec.x2 X G r)
    (h1 : ∀ r col : Fin 512, v3 (ix2 r col) = Cert.Spec.w1k S r col)
    (h2 : ∀ col : Fin 512, v6 (ix2 (0 : Fin 1) col) = Cert.Spec.b1t S col)
    (h3 : ∀ (r : Fin 512) (q : Fin 128), v13 (ix2 r q) = Cert.Spec.m2 S r q)
    (h4 : ∀ q : Fin 128, v16 (ix2 (0 : Fin 1) q) = Cert.Spec.b2t S q)
    (h5 : ∀ r q : Fin 128, v26 (ix2 r q) = Cert.Spec.gm r q) :
    Pay.outP v0 v3 v6 v13 v16 v26 g q = Cert.Spec.kerOut X S G q := by
  unfold Pay.outP Pay.mP Pay.zP Pay.hP Cert.Spec.kerOut Cert.Spec.MK Cert.Spec.zK Cert.Spec.hK
  simp only [h0, h1, h2, h3, h4, h5]

/-- What the body leaves at row `g`, lane `q` of its output block, when the input blocks hold rows
    `1024 T …` of the flattened graphs and the five constant matrices. -/
theorem block_apply (X : Cert.Spec.XArr) (S : Cert.Spec.SArr) (g : Fin 1024) (q : Fin 128) (G : Fin 16384)
    (h0 : ∀ r : Fin 512, x0 (ix2 g r) = Cert.Spec.x2 X G r)
    (h1 : ∀ r col : Fin 512, x1 (ix2 r col) = Cert.Spec.w1k S r col)
    (h2 : ∀ col : Fin 512, x2 (ix2 (0 : Fin 8) col) = Cert.Spec.b1t S col)
    (h3 : ∀ (r : Fin 512) (q : Fin 128), x3 (ix2 r q) = Cert.Spec.m2 S r q)
    (h4 : ∀ q : Fin 128, x4 (ix2 (0 : Fin 8) q) = Cert.Spec.b2t S q)
    (h5 : ∀ r q : Fin 128, x5 (ix2 r q) = Cert.Spec.gm r q) :
    out0_6 x0 x1 x2 x3 x4 x5 (ix2 g q) = Cert.Spec.kerOut X S G q := by
  unfold out0_6
  rw [View.canon_unit_zero hz]
  refine (Pay.pay_apply _ _ _ _ _ _ g q).trans ?_
  refine outP_eq_kerOut X S G _ _ _ _ _ _ g q ?_ ?_ ?_ ?_ ?_ ?_
  · intro r; rw [View.ld_unit_zero (S := S1024x512) hz]; exact h0 r
  · intro r col; rw [View.ld_unit_zero (S := S512x512) hz]; exact h1 r col
  · intro col; rw [ld_row512]; exact h2 col
  · intro r q; rw [View.ld_unit_zero (S := S512x128) hz]; exact h3 r q
  · intro q; rw [ld_row128]; exact h4 q
  · intro r q; rw [View.ld_unit_zero (S := S128x128) hz]; exact h5 r q

end Block

/-! ## The blocks at a grid point, and the whole array -/

variable (m : (ℓ : Loc nD τ sig) → Buf (Elt Ideal) ℓ) (ρ : Dev nD → PrngReg)

/-- What the host operations before the region leave in the region's six input arrays, entry by entry. -/
structure GlueAt (c : Dev nD) : Prop where
  x2 : ∀ (g : Fin 16384) (r : Fin 512),
    (V m c main_call0_v49 : S16384x512.Idx → EReal) (ix2 g r) = Cert.Spec.x2 (m ((c : Thread nD τ).loc main_arg0)) g r
  w1k : ∀ (r col : Fin 512),
    (V m c main_call0_v19 : S512x512.Idx → EReal) (ix2 r col) = Cert.Spec.w1k (m ((c : Thread nD τ).loc main_arg1)) r col
  b1t : ∀ (a : Fin 8) (col : Fin 512),
    (V m c main_call0_v32 : S8x512.Idx → EReal) (ix2 a col) = Cert.Spec.b1t (m ((c : Thread nD τ).loc main_arg1)) col
  m2 : ∀ (r : Fin 512) (q : Fin 128),
    (V m c main_call0_v27 : S512x128.Idx → EReal) (ix2 r q) = Cert.Spec.m2 (m ((c : Thread nD τ).loc main_arg1)) r q
  b2t : ∀ (a : Fin 8) (q : Fin 128),
    (V m c main_call0_v40 : S8x128.Idx → EReal) (ix2 a q) = Cert.Spec.b2t (m ((c : Thread nD τ).loc main_arg1)) q
  gm : ∀ (r q : Fin 128),
    (V m c main_call0_v48 : S128x128.Idx → EReal) (ix2 r q) = Cert.Spec.gm r q

/-- The output array of the region: entry (b, q) is the specification's entry of graph `b` at lane `q`. -/
def K2 (X : Cert.Spec.XArr) (S : Cert.Spec.SArr) : S16384x128.Idx → EReal := fun j => Cert.Spec.kerOut X S (j 0) (j 1)

/-- The printed index maps, decided over the 16 grid points: the two row-blocked windows are at block `t`, the five
    constant windows at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- A grid point has one of 16 positions. -/
theorem pt_lt (t : Fin cfg0.N) : t.val < 16 := lt_of_lt_of_eq t.isLt N_0

/-- Row `g` of point `t`'s block is row `1024 t + g` of the array. -/
def row (t : Fin cfg0.N) (g : Fin 1024) : Fin 16384 :=
  ⟨t.val * 1024 + g.val, by have := pt_lt t; have := g.isLt; omega⟩

/-- The block of flattened graphs at point `t`. -/
theorem iblk0_apply (c : Dev nD) (hG : GlueAt m c) (t : Fin cfg0.N) (g : Fin 1024) (r : Fin 512) :
    iblk m c 0 t (ix2 g r) = Cert.Spec.x2 (m ((c : Thread nD τ).loc main_arg0)) (row t g) r := by
  obtain ⟨e00, e01, -⟩ := idx_facts t
  show V m c main_call0_v49 (((cfg0.win 0).blk t).view.emb (ix2 g r)) = _
  have h : ((cfg0.win 0).blk t).view.emb (ix2 g r) = ix2 (row t g) r := by
    funext a; apply Fin.ext
    match a with
    | ⟨0, _⟩ => show win0_0.index t (0 : Fin 2) * 1024 + 1 * g.val = t.val * 1024 + g.val; omega
    | ⟨1, _⟩ => show win0_0.index t (1 : Fin 2) * 512 + 1 * r.val = r.val; omega
  rw [h]; exact hG.x2 _ r

/-- The first-layer matrix, staged whole at every point. -/
theorem iblk1_apply (c : Dev nD) (hG : GlueAt m c) (t : Fin cfg0.N) (r col : Fin 512) :
    iblk m c 1 t (ix2 r col) = Cert.Spec.w1k (m ((c : Thread nD τ).loc main_arg1)) r col := by
  obtain ⟨-, -, e10, e11, -⟩ := idx_facts t
  show V m c main_call0_v19 (((cfg0.win 1).blk t).view.emb (ix2 r col)) = _
  have h : ((cfg0.win 1).blk t).view.emb (ix2 r col) = ix2 r col := by
    funext a; apply Fin.ext
    match a with
    | ⟨0, _⟩ => show win0_1.index t (0 : Fin 2) * 512 + 1 * r.val = r.val; omega
    | ⟨1, _⟩ => show win0_1.index t (1 : Fin 2) * 512 + 1 * col.val = col.val; omega
  rw [h]; exact hG.w1k r col

/-- The first bias block. -/
theorem iblk2_apply (c : Dev nD) (hG : GlueAt m c) (t : Fin cfg0.N) (a' : Fin 8) (col : Fin 512) :
    iblk m c 2 t (ix2 a' col) = Cert.Spec.b1t (m ((c : Thread nD τ).loc main_arg1)) col := by
  obtain ⟨-, -, -, -, e20, e21, -⟩ := idx_facts t
  show V m c main_call0_v32 (((cfg0.win 2).blk t).view.emb (ix2 a' col)) = _
  have h : ((cfg0.win 2).blk t).view.emb (ix2 a' col) = ix2 a' col := by
    funext a; apply Fin.ext
    match a with
    | ⟨0, _⟩ => show win0_2.index t (0 : Fin 2) * 8 + 1 * a'.val = a'.val; omega
    | ⟨1, _⟩ => show win0_2.index t (1 : Fin 2) * 512 + 1 * col.val = col.val; omega
  rw [h]; exact hG.b1t a' col

/-- The second-layer matrix. -/
theorem iblk3_apply (c : Dev nD) (hG : GlueAt m c) (t : Fin cfg0.N) (r : Fin 512) (q : Fin 128) :
    iblk m c 3 t (ix2 r q) = Cert.Spec.m2 (m ((c : Thread nD τ).loc main_arg1)) r q := by
  obtain ⟨-, -, -, -, -, -, e30, e31, -⟩ := idx_facts t
  show V m c main_call0_v27 (((cfg0.win 3).blk t).view.emb (ix2 r q)) = _
  have h : ((cfg0.win 3).blk t).view.emb (ix2 r q) = ix2 r q := by
    funext a; apply Fin.ext
    match a with
    | ⟨0, _⟩ => show win0_3.index t (0 : Fin 2) * 512 + 1 * r.val = r.val; omega
    | ⟨1, _⟩ => show win0_3.index t (1 : Fin 2) * 128 + 1 * q.val = q.val; omega
  rw [h]; exact hG.m2 r q

/-- The second bias block. -/
theorem iblk4_apply (c : Dev nD) (hG : GlueAt m c) (t : Fin cfg0.N) (a' : Fin 8) (q : Fin 128) :
    iblk m c 4 t (ix2 a' q) = Cert.Spec.b2t (m ((c : Thread nD τ).loc main_arg1)) q := by
  obtain ⟨-, -, -, -, -, -, -, -, e40, e41, -⟩ := idx_facts t
  show V m c main_call0_v40 (((cfg0.win 4).blk t).view.emb (ix2 a' q)) = _
  have h : ((cfg0.win 4).blk t).view.emb (ix2 a' q) = ix2 a' q := by
    funext a; apply Fin.ext
    match a with
    | ⟨0, _⟩ => show win0_4.index t (0 : Fin 2) * 8 + 1 * a'.val = a'.val; omega
    | ⟨1, _⟩ => show win0_4.index t (1 : Fin 2) * 128 + 1 * q.val = q.val; omega
  rw [h]; exact hG.b2t a' q

/-- The group-sum matrix. -/
theorem iblk5_apply (c : Dev nD) (hG : GlueAt m c) (t : Fin cfg0.N) (r q : Fin 128) :
    iblk m c 5 t (ix2 r q) = Cert.Spec.gm r q := by
  obtain ⟨-, -, -, -, -, -, -, -, -, -, e50, e51, -⟩ := idx_facts t
  show V m c main_call0_v48 (((cfg0.win 5).blk t).view.emb (ix2 r q)) = _
  have h : ((cfg0.win 5).blk t).view.emb (ix2 r q) = ix2 r q := by
    funext a; apply Fin.ext
    match a with
    | ⟨0, _⟩ => show win0_5.index t (0 : Fin 2) * 128 + 1 * r.val = r.val; omega
    | ⟨1, _⟩ => show win0_5.index t (1 : Fin 2) * 128 + 1 * q.val = q.val; omega
  rw [h]; exact hG.gm r q

/-- Entry (g, q) of point `t`'s output block sits at row `1024 t + g`, lane `q` of the array. -/
theorem emb6 (t : Fin cfg0.N) (g : Fin 1024) (q : Fin 128) :
    ((cfg0.win 6).blk t).view.emb (ix2 g q) = ix2 (row t g) q := by
  obtain ⟨-, -, -, -, -, -, -, -, -, -, -, -, e60, e61⟩ := idx_facts t
  funext a; apply Fin.ext
  match a with
  | ⟨0, _⟩ => show win0_6.index t (0 : Fin 2) * 1024 + 1 * g.val = t.val * 1024 + g.val; omega
  | ⟨1, _⟩ => show win0_6.index t (1 : Fin 2) * 128 + 1 * q.val = q.val; omega

/-- What point `t` writes back is block `t` of `K2`. -/
theorem flushed6_eq (c : Dev nD) (hG : GlueAt m c) (t : Fin cfg0.N) :
    (dats m 0 c).flushed 6 t = ((cfg0.win 6).blk t).view.read (Elt Ideal)
      (K2 (m ((c : Thread nD τ).loc main_arg0)) (m ((c : Thread nD τ).loc main_arg1))) := by
  show (cfg0.win 6).cut (grid0.coords t) ((dats m 0 c).after 6 t) = _
  rw [after0_6]
  funext j
  obtain ⟨g, q, rfl⟩ : ∃ (g : Fin 1024) (q : Fin 128), j = ix2 g q := ⟨j 0, j 1, eq_ix2 j⟩
  show out0_6 (iblk m c 0 t) (iblk m c 1 t) (iblk m c 2 t) (iblk m c 3 t) (iblk m c 4 t) (iblk m c 5 t) (ix2 g q)
    = K2 (m ((c : Thread nD τ).loc main_arg0)) (m ((c : Thread nD τ).loc main_arg1)) (((cfg0.win 6).blk t).view.emb (ix2 g q))
  rw [emb6]
  exact block_apply _ _ _ _ _ _ _ _ g q (row t g)
    (fun r => iblk0_apply m c hG t g r) (fun r col => iblk1_apply m c hG t r col)
    (fun col => iblk2_apply m c hG t 0 col) (fun r q' => iblk3_apply m c hG t r q')
    (fun q' => iblk4_apply m c hG t 0 q') (fun r q' => iblk5_apply m c hG t r q')

/-- An index of the output array is in point `t`'s block iff each coordinate is in the block's range on its axis. -/
theorem mem_blk6 (t : Fin cfg0.N) (i : S16384x128.Idx) :
    i ∈ ((cfg0.win 6).blk t).view.set ↔ ∀ a : Fin 2, win0_6.index t a * S1024x128.size a ≤ (i a).val
      ∧ (i a).val < win0_6.index t a * S1024x128.size a + S1024x128.size a := by
  show i ∈ ((View.whole main_call0_v50).slice (win0_6.rect t)).set ↔ _
  rw [View.set_slice_whole, Rect.mem_set_unit]
  exact Iff.rfl

/-- Row `b` of the output lies in the block of point `b / 1024`. -/
theorem cover6 (i : S16384x128.Idx) :
    ∃ t : Fin cfg0.N, (cfg0.win 6).flush t = true ∧ i ∈ ((cfg0.win 6).blk t).view.set := by
  have hi0 : (i 0).val < 16384 := (i 0).isLt
  have hi1 : (i 1).val < 128 := (i 1).isLt
  let t : Fin cfg0.N := ⟨(i 0).val / 1024, by rw [show cfg0.N = 16 from N_0]; omega⟩
  obtain ⟨_, _, _, _, _, _, _, _, _, _, _, _, e60, e61⟩ := idx_facts t
  have e60' : win0_6.index t (0 : Fin 2) = (i 0).val / 1024 := e60
  refine ⟨t, flush0_6 t, ?_⟩
  rw [mem_blk6]
  intro a
  match a with
  | ⟨0, _⟩ =>
    show win0_6.index t (0 : Fin 2) * 1024 ≤ (i 0).val ∧ (i 0).val < win0_6.index t (0 : Fin 2) * 1024 + 1024
    omega
  | ⟨1, _⟩ =>
    show win0_6.index t (1 : Fin 2) * 128 ≤ (i 1).val ∧ (i 1).val < win0_6.index t (1 : Fin 2) * 128 + 128
    omega

/-- The region's output array after the run is `K2` of the arguments. -/
theorem final6 (c : Dev nD) (hG : GlueAt m c) :
    (dats m 0 c).arrAt 6 cfg0.N = K2 (m ((c : Thread nD τ).loc main_arg0)) (m ((c : Thread nD τ).loc main_arg1)) :=
  (dats m 0 c).arrAt_eq_of_cover 6 _ (fun t _ => flushed6_eq m c hG t) cover6

/-! ## The reshape after the region, and the run -/

/-- The reshape [16384, 128] → [16384, 16, 8] after the region reads lane `8 i + k` of row `b` at (b, i, k). -/
theorem tail_eq (c : Dev nD) (hG : GlueAt m c) :
    Pipeline.afterTail₀ cfgs (dats m) 0 (V0 m) [hostOps1] c main_v0
      = Cert.Spec.Gker (m ((c : Thread nD τ).loc main_arg0)) (m ((c : Thread nD τ).loc main_arg1)) := by
  unfold Pipeline.afterTail₀
  show StableHlo.after hostOps1 _ (Proc.devRef .tc main_v0) = _
  after_results_simp
  funext p
  obtain ⟨b, i, k, rfl⟩ : ∃ (b : Fin 16384) (i : Fin 16) (k : Fin 8), p = ix3 b i k := ⟨p 0, p 1, p 2, eq_ix3 p⟩
  have hA : (Pipeline.withArrays (cfgs 0).spec c (V0 m c) (fun w => (dats m 0 c).arrAt w (cfgs 0).N)
      (Proc.tc.devRef main_call0_v50) : S16384x128.Idx → EReal)
      = K2 (m ((c : Thread nD τ).loc main_arg0)) (m ((c : Thread nD τ).loc main_arg1)) :=
    (Pipeline.withArrays_arr spec0 launch0.win.arr_inj c _ _ 6).trans (final6 m c hG)
  refine (shapeCast_apply (s := S16384x128) (t := S16384x16x8) _ _ (ix3 b i k)
    (ix2 b (⟨8 * i.val + k.val, by have := i.isLt; have := k.isLt; omega⟩ : Fin 128)) ?_).trans ?_
  · rw [Shape.rowMajor_val_two, Shape.rowMajor_val_three]
    show b.val * 128 + (8 * i.val + k.val) = (b.val * 16 + i.val) * 8 + k.val
    omega
  · exact (congrFun hA _).trans rfl

/-- The kernel's run: every weakly fair execution terminates with the result array at the specification's `Gker` of
    the arguments, which end unchanged. -/
theorem run (hG : ∀ c, GlueAt m c) :
    θ_run (defs (F := Ideal)) (onTc (τ := τ) (main (F := Ideal))) ⟨m, fun _ => 0, ρ⟩ fun r => ∀ c : Dev nD,
      r.2.mem ((c : Thread nD τ).loc main_v0)
        = Cert.Spec.Gker (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v0 (Pipeline.mem_restRefs_of main_v0 (by decide) (by decide))).trans (tail_eq m c (hG c)),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.KerValue

end
-- ==== Proof.RefValue.lean ====
/-
  The reference program's result array is `Spec.Gref` of its two arguments.

  One grid point `t` of the reference handles graph `t`: it reads the graph's 16 x 32 block of features and the whole
  96 x 32 table, and writes the graph's 16 x 8 block of the result. First the block's arithmetic is read at an entry
  `(i, c)`, stage by stage over arbitrary vectors: the rectified first layer `max (x · w1 + b1) 0`, the second layer
  `hid · w2 + b2`, the propagation `pm · loc`, and the log-softmax of each row with the row's own maximum subtracted
  first. The five constants are rectangles of the table (rows 0-31, 32, 40-71, 72 and 80-95), so each loaded entry is
  the table's entry the specification names. Then the blocks are put together: point `t` writes block `t` of
  `Spec.Gref`, every index `(b, i, c)` of the result lies in block `b`, so the array ends holding `Spec.Gref`.
-/
import proofs.«139694_g2000206686455459_pallasbulk_945_2_alg».proof.Proof.Gen.ReferenceIdeal.Value
import proofs.«139694_g2000206686455459_pallasbulk_945_2_alg».proof.Proof.Spec
import proofs.«139694_g2000206686455459_pallasbulk_945_2_alg».proof.Proof.LibMatmulPlain
import proofs.«139694_g2000206686455459_pallasbulk_945_2_alg».proof.Proof.LibRowReduce
import proofs.«139694_g2000206686455459_pallasbulk_945_2_alg».proof.Proof.LibKeepdims

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx
open Idealize.ShloMosaic.Pipeline (Dat)

/-! ## The block's arithmetic, stage by stage, read at an entry -/

/-- The f32 word `0xFF800000` is `-∞`: the value a row maximum starts from. -/
theorem word_neg_inf : Ideal.ofBits .f32 0xFF800000#32 = ⊥ := by simp [Ideal.ofBits, Ideal.ieee]

/-- The rectified first layer of a block of 16 nodes: `max (v1 · v2 + v3) 0`, the bias row `v3` added to every node. -/
def hidV (v1 : FVec Ideal S16x32 .f32) (v2 : FVec Ideal S32x32 .f32) (v3 : FVec Ideal S1x32 .f32) : FVec Ideal S16x32 .f32 :=
  maximumf
    (addf (matmul dot_S16x32_S32x32_S16x32_1_0_0_1_n_n none v1 v2 (constant (F := Ideal) S16x32 .f32 0x00000000#32))
      (broadcastTo S16x32 v3 broadcasts_S1x32_S16x32))
    (broadcast S16x32 (Scalar.ofBits (F := Ideal) .f32 0x00000000#32))

/-- Node `j`'s hidden feature `k`: the row of `v1` against the column of `v2`, plus the bias, rectified. -/
theorem hidV_apply (v1 : FVec Ideal S16x32 .f32) (v2 : FVec Ideal S32x32 .f32) (v3 : FVec Ideal S1x32 .f32)
    (j : Fin 16) (k : Fin 32) :
    hidV v1 v2 v3 (ix2 j k) = max ((∑ f : Fin 32, v1 (ix2 j f) * v2 (ix2 f k)) + v3 (ix2 (0 : Fin 1) k)) 0 := by
  have hb : broadcastTo S16x32 v3 broadcasts_S1x32_S16x32 (ix2 j k) = v3 (ix2 (0 : Fin 1) k) :=
    broadcastTo_apply v3 broadcasts_S1x32_S16x32 (ix2 j k) (ix2 (0 : Fin 1) k) fun a => by
      match a with
      | ⟨0, _⟩ => rfl
      | ⟨1, _⟩ => rfl
  show max (matmul (DotDims.plain 16 32 32) none v1 v2 (constant (F := Ideal) ⟨2, ![16, 32]⟩ .f32 0x00000000#32) (ix2 j k)
      + broadcastTo S16x32 v3 broadcasts_S1x32_S16x32 (ix2 j k)) (Ideal.ofBits .f32 0x00000000#32) = _
  rw [MatmulPlain.matmul_zero_apply, hb, Ideal.ofBits_zero_f32]

/-- The second layer: `h · v4 + v5`, the bias row `v5` added to every node. -/
def locV (h : FVec Ideal S16x32 .f32) (v4 : FVec Ideal S32x8 .f32) (v5 : FVec Ideal S1x8 .f32) : FVec Ideal S16x8 .f32 :=
  addf (matmul dot_S16x32_S32x8_S16x8_1_0_0_1_n_n none h v4 (constant (F := Ideal) S16x8 .f32 0x00000000#32))
    (broadcastTo S16x8 v5 broadcasts_S1x8_S16x8)

/-- Node `j`'s local prediction for class `c`. -/
theorem locV_apply (h : FVec Ideal S16x32 .f32) (v4 : FVec Ideal S32x8 .f32) (v5 : FVec Ideal S1x8 .f32)
    (j : Fin 16) (c : Fin 8) :
    locV h v4 v5 (ix2 j c) = (∑ k : Fin 32, h (ix2 j k) * v4 (ix2 k c)) + v5 (ix2 (0 : Fin 1) c) := by
  have hb : broadcastTo S16x8 v5 broadcasts_S1x8_S16x8 (ix2 j c) = v5 (ix2 (0 : Fin 1) c) :=
    broadcastTo_apply v5 broadcasts_S1x8_S16x8 (ix2 j c) (ix2 (0 : Fin 1) c) fun a => by
      match a with
      | ⟨0, _⟩ => rfl
      | ⟨1, _⟩ => rfl
  show matmul (DotDims.plain 16 32 8) none h v4 (constant (F := Ideal) ⟨2, ![16, 8]⟩ .f32 0x00000000#32) (ix2 j c)
      + broadcastTo S16x8 v5 broadcasts_S1x8_S16x8 (ix2 j c) = _
  rw [MatmulPlain.matmul_zero_apply, hb]

/-- The propagation: `v6 · l`. -/
def predV (v6 : FVec Ideal S16x16 .f32) (l : FVec Ideal S16x8 .f32) : FVec Ideal S16x8 .f32 :=
  matmul dot_S16x16_S16x8_S16x8_1_0_0_1_n_n none v6 l (constant (F := Ideal) S16x8 .f32 0x00000000#32)

/-- Node `i`'s propagated prediction for class `c`: row `i` of `v6` against the nodes' local predictions. -/
theorem predV_apply (v6 : FVec Ideal S16x16 .f32) (l : FVec Ideal S16x8 .f32) (i : Fin 16) (c : Fin 8) :
    predV v6 l (ix2 i c) = ∑ j : Fin 16, v6 (ix2 i j) * l (ix2 j c) := by
  show matmul (DotDims.plain 16 16 8) none v6 l (constant (F := Ideal) ⟨2, ![16, 8]⟩ .f32 0x00000000#32) (ix2 i c) = _
  rw [MatmulPlain.matmul_zero_apply]

/-- Each row with its own maximum subtracted: the maximum is taken along the row, kept as a column, and spread back
    over the row's 8 entries. -/
def cenV (p : FVec Ideal S16x8 .f32) : FVec Ideal S16x8 .f32 :=
  subf p (broadcastTo S16x8
    (shapeCast S16x1 (multiReduction .maximumf [1] S16 p 0xFF800000#32 reduces_S16x8_S16 (.inl rfl) rfl) shapeCasts_S16_S16x1)
    broadcasts_S16x1_S16x8)

/-- Entry `(i, c)` minus the largest entry of row `i`. -/
theorem cenV_apply (p : FVec Ideal S16x8 .f32) (i : Fin 16) (c : Fin 8) :
    cenV p (ix2 i c) = p (ix2 i c) - (Finset.univ : Finset (Fin 8)).fold max ⊥ (fun c' => p (ix2 i c')) := by
  show p (ix2 i c) - broadcastTo S16x8
    (shapeCast S16x1 (multiReduction .maximumf [1] S16 p 0xFF800000#32 reduces_S16x8_S16 (.inl rfl) rfl) shapeCasts_S16_S16x1)
    broadcasts_S16x1_S16x8 (ix2 i c) = _
  rw [Keepdims.broadcastTo_a1_ab_apply, Keepdims.shapeCast_a_a1_apply]
  refine congrArg (p (ix2 i c) - ·) ?_
  refine (RowReduce.rowMax_apply p 0xFF800000#32 reduces_S16x8_S16 (.inl rfl) rfl i).trans ?_
  rw [word_neg_inf]

/-- The log-softmax of each row, written over the centred rows: the row sum of the exponentials is kept as a column,
    its logarithm is taken on the column, and the column is spread back over the row. -/
def lsmV (p : FVec Ideal S16x8 .f32) : FVec Ideal S16x8 .f32 :=
  subf (cenV p) (broadcastTo S16x8
    (log (shapeCast S16x1 (multiReduction .add [1] S16 (exp (cenV p)) 0x00000000#32 reduces_S16x8_S16 (.inl rfl) rfl) shapeCasts_S16_S16x1))
    broadcasts_S16x1_S16x8)

/-- The centred entry minus the logarithm of the row's sum of exponentials of centred entries. -/
theorem lsmV_apply (p : FVec Ideal S16x8 .f32) (i : Fin 16) (c : Fin 8) :
    lsmV p (ix2 i c) = cenV p (ix2 i c) - Ideal.log (∑ c' : Fin 8, Ideal.exp (cenV p (ix2 i c'))) := by
  show cenV p (ix2 i c) - broadcastTo S16x8
    (log (shapeCast S16x1 (multiReduction .add [1] S16 (exp (cenV p)) 0x00000000#32 reduces_S16x8_S16 (.inl rfl) rfl) shapeCasts_S16_S16x1))
    broadcasts_S16x1_S16x8 (ix2 i c) = _
  rw [Keepdims.broadcastTo_a1_ab_apply]
  show cenV p (ix2 i c) - Ideal.log (shapeCast S16x1
    (multiReduction .add [1] S16 (exp (cenV p)) 0x00000000#32 reduces_S16x8_S16 (.inl rfl) rfl) shapeCasts_S16_S16x1 (ix2 i (0 : Fin 1))) = _
  rw [Keepdims.shapeCast_a_a1_apply]
  refine congrArg (fun z => cenV p (ix2 i c) - Ideal.log z) ?_
  exact RowReduce.rowSum_apply (exp (cenV p)) 0x00000000#32 reduces_S16x8_S16 (.inl rfl) rfl i

/-- The block's arithmetic is the four stages between the two changes of shape: the leading unit axis of the
    [1,16,32] block dropped on the way in, and added to the [16,8] result on the way out. -/
theorem pay_eq (v0 : Vec Ideal S1x16x32 .f32) (v2 : Vec Ideal S32x32 .f32) (v3 : Vec Ideal S1x32 .f32)
    (v4 : Vec Ideal S32x8 .f32) (v5 : Vec Ideal S1x8 .f32) (v6 : Vec Ideal S16x16 .f32) :
    k0_pay1 v0 v2 v3 v4 v5 v6
      = shapeCast S1x16x8 (lsmV (predV v6 (locV (hidV (shapeCast S16x32 v0 shapeCasts_S1x16x32_S16x32) v2 v3) v4 v5)))
          shapeCasts_S16x8_S1x16x8 := rfl

/-! ## The two changes of shape, and the loads, at an entry -/

/-- The [1,16,32] block viewed [16,32]: entry `(j, f)` is the block's `(0, j, f)`. -/
theorem cast_in (v0 : FVec Ideal S1x16x32 .f32) (j : Fin 16) (f : Fin 32) :
    shapeCast S16x32 v0 shapeCasts_S1x16x32_S16x32 (ix2 j f) = v0 (ix3 (0 : Fin 1) j f) :=
  shapeCast_apply v0 shapeCasts_S1x16x32_S16x32 (ix2 j f) (ix3 (0 : Fin 1) j f) (by
    rw [Shape.rowMajor_val_three, Shape.rowMajor_val_two]
    show (0 * 16 + j.val) * 32 + f.val = j.val * 32 + f.val
    omega)

/-- The [16,8] result stored as a [1,16,8] block: the block's `(0, i, c)` is entry `(i, c)`. -/
theorem cast_out (w : FVec Ideal S16x8 .f32) (i : Fin 16) (c : Fin 8) :
    shapeCast S1x16x8 w shapeCasts_S16x8_S1x16x8 (ix3 (0 : Fin 1) i c) = w (ix2 i c) :=
  shapeCast_apply w shapeCasts_S16x8_S1x16x8 (ix3 (0 : Fin 1) i c) (ix2 i c) (by
    rw [Shape.rowMajor_val_three, Shape.rowMajor_val_two]
    show i.val * 8 + c.val = (0 * 16 + i.val) * 8 + c.val
    omega)

theorem hz3 : (![0, 0, 0] : Fin 3 → Nat) = fun _ => 0 := funext fun a => by fin_cases a <;> rfl

/-- The first-layer weights are the table's rows 0-31. -/
theorem ld_w1 (x1 : Vec Ideal S96x32 .f32) (f k : Fin 32) :
    (View.ld x1 r0_1 : FVec Ideal S32x32 .f32) (ix2 f k) = Spec.w1 x1 f k := by
  show x1 (r0_1.idx (ix2 f k)) = x1 _
  refine congrArg x1 (funext fun a => Fin.ext ?_)
  match a with
  | ⟨0, _⟩ => show 0 + 1 * f.val = f.val; omega
  | ⟨1, _⟩ => show 0 + 1 * k.val = k.val; omega

/-- The first-layer bias is the table's row 32. -/
theorem ld_b1 (x1 : Vec Ideal S96x32 .f32) (k : Fin 32) :
    (View.ld x1 r0_2 : FVec Ideal S1x32 .f32) (ix2 (0 : Fin 1) k) = Spec.b1 x1 k := by
  show x1 (r0_2.idx (ix2 (0 : Fin 1) k)) = x1 _
  refine congrArg x1 (funext fun a => Fin.ext ?_)
  match a with
  | ⟨0, _⟩ => show 32 + 1 * 0 = 32; omega
  | ⟨1, _⟩ => show 0 + 1 * k.val = k.val; omega

/-- The second-layer weights are the table's rows 40-71, columns 0-7. -/
theorem ld_w2 (x1 : Vec Ideal S96x32 .f32) (k : Fin 32) (c : Fin 8) :
    (View.ld x1 r0_3 : FVec Ideal S32x8 .f32) (ix2 k c) = Spec.w2 x1 k c := by
  show x1 (r0_3.idx (ix2 k c)) = x1 _
  refine congrArg x1 (funext fun a => Fin.ext ?_)
  match a with
  | ⟨0, _⟩ => show 40 + 1 * k.val = 40 + k.val; omega
  | ⟨1, _⟩ => show 0 + 1 * c.val = c.val; omega

/-- The second-layer bias is the table's row 72, columns 0-7. -/
theorem ld_b2 (x1 : Vec Ideal S96x32 .f32) (c : Fin 8) :
    (View.ld x1 r0_4 : FVec Ideal S1x8 .f32) (ix2 (0 : Fin 1) c) = Spec.b2 x1 c := by
  show x1 (r0_4.idx (ix2 (0 : Fin 1) c)) = x1 _
  refine congrArg x1 (funext fun a => Fin.ext ?_)
  match a with
  | ⟨0, _⟩ => show 72 + 1 * 0 = 72; omega
  | ⟨1, _⟩ => show 0 + 1 * c.val = c.val; omega

/-- The propagation matrix is the table's rows 80-95, columns 0-15. -/
theorem ld_pm (x1 : Vec Ideal S96x32 .f32) (i j : Fin 16) :
    (View.ld x1 r0_5 : FVec Ideal S16x16 .f32) (ix2 i j) = Spec.pm x1 i j := by
  show x1 (r0_5.idx (ix2 i j)) = x1 _
  refine congrArg x1 (funext fun a => Fin.ext ?_)
  match a with
  | ⟨0, _⟩ => show 80 + 1 * i.val = 80 + i.val; omega
  | ⟨1, _⟩ => show 0 + 1 * j.val = j.val; omega

/-! ## The stages are the specification's functions -/

section Stages
variable (X : Spec.XArr) (S : Spec.SArr) (b : Fin 16384)

/-- The first stage of graph `b`'s block is `Spec.hid`, when its operands are the graph's features, `w1` and `b1`. -/
theorem hid_of (v1 : FVec Ideal S16x32 .f32) (v2 : FVec Ideal S32x32 .f32) (v3 : FVec Ideal S1x32 .f32)
    (h1 : ∀ (j : Fin 16) (f : Fin 32), v1 (ix2 j f) = X (ix3 b j f))
    (h2 : ∀ f k : Fin 32, v2 (ix2 f k) = Spec.w1 S f k)
    (h3 : ∀ k : Fin 32, v3 (ix2 (0 : Fin 1) k) = Spec.b1 S k) (j : Fin 16) (k : Fin 32) :
    hidV v1 v2 v3 (ix2 j k) = Spec.hid X S b j k := by
  rw [hidV_apply, h3]
  unfold Spec.hid
  refine congrArg (fun z => max (z + Spec.b1 S k) 0) ?_
  exact Finset.sum_congr rfl fun f _ => by rw [h1, h2]

/-- The second stage is `Spec.loc`. -/
theorem loc_of (h : FVec Ideal S16x32 .f32) (v4 : FVec Ideal S32x8 .f32) (v5 : FVec Ideal S1x8 .f32)
    (hh : ∀ (j : Fin 16) (k : Fin 32), h (ix2 j k) = Spec.hid X S b j k)
    (h4 : ∀ (k : Fin 32) (c : Fin 8), v4 (ix2 k c) = Spec.w2 S k c)
    (h5 : ∀ c : Fin 8, v5 (ix2 (0 : Fin 1) c) = Spec.b2 S c) (j : Fin 16) (c : Fin 8) :
    locV h v4 v5 (ix2 j c) = Spec.loc X S b j c := by
  rw [locV_apply, h5]
  unfold Spec.loc
  refine congrArg (· + Spec.b2 S c) ?_
  exact Finset.sum_congr rfl fun k _ => by rw [hh, h4]

/-- The third stage is `Spec.preds`. -/
theorem preds_of (v6 : FVec Ideal S16x16 .f32) (l : FVec Ideal S16x8 .f32)
    (h6 : ∀ i j : Fin 16, v6 (ix2 i j) = Spec.pm S i j)
    (hl : ∀ (j : Fin 16) (c : Fin 8), l (ix2 j c) = Spec.loc X S b j c) (i : Fin 16) (c : Fin 8) :
    predV v6 l (ix2 i c) = Spec.preds X S b i c := by
  rw [predV_apply]
  unfold Spec.preds
  exact Finset.sum_congr rfl fun j _ => by rw [h6, hl]

/-- The last stage, on the propagated predictions, is `Spec.refOut`. -/
theorem out_of (p : FVec Ideal S16x8 .f32) (hp : ∀ (i : Fin 16) (c : Fin 8), p (ix2 i c) = Spec.preds X S b i c)
    (i : Fin 16) (c : Fin 8) : lsmV p (ix2 i c) = Spec.refOut X S b i c := by
  have hc : ∀ c' : Fin 8, cenV p (ix2 i c') = Spec.preds X S b i c' - Spec.rowMax X S b i := fun c' => by
    rw [cenV_apply, hp]
    unfold Spec.rowMax
    refine congrArg (Spec.preds X S b i c' - ·) ?_
    exact congrArg (Finset.fold max ⊥ · (Finset.univ : Finset (Fin 8))) (funext fun c'' => hp i c'')
  rw [lsmV_apply, hc]
  unfold Spec.refOut
  refine congrArg (fun z => Spec.preds X S b i c - Spec.rowMax X S b i - Ideal.log z) ?_
  exact Finset.sum_congr rfl fun c' _ => by rw [hc]

end Stages

/-- THE BLOCK AT AN ENTRY: for a block `x0` holding graph `b`'s features and the table `x1`, the body's result at
    `(0, i, c)` is the specification's `refOut` for graph `b`, node `i`, class `c`. -/
theorem pay_apply (x0 : Vec Ideal S1x16x32 .f32) (x1 : Vec Ideal S96x32 .f32) (X : Spec.XArr) (b : Fin 16384)
    (hx : ∀ (j : Fin 16) (f : Fin 32), x0 (ix3 (0 : Fin 1) j f) = X (ix3 b j f)) (i : Fin 16) (c : Fin 8) :
    k0_pay1 (View.ld x0 r0_0) (View.ld x1 r0_1) (View.ld x1 r0_2) (View.ld x1 r0_3) (View.ld x1 r0_4) (View.ld x1 r0_5)
        (ix3 (0 : Fin 1) i c) = Spec.refOut X x1 b i c := by
  rw [pay_eq, View.ld_unit_zero (S := S1x16x32) hz3, cast_out]
  refine out_of X x1 b _ (fun i c => ?_) i c
  refine preds_of X x1 b _ _ (ld_pm x1) (fun j c => ?_) i c
  refine loc_of X x1 b _ _ _ (fun j k => ?_) (ld_w2 x1) (ld_b2 x1) j c
  exact hid_of X x1 b _ _ _ (fun j f => (cast_in x0 j f).trans (hx j f)) (ld_w1 x1) (ld_b1 x1) j k

/-- THE BLOCK, ENTRY BY ENTRY: the same at any index `y` of the block, against the array index `q` with graph
    coordinate `b` and `y`'s node and class coordinates. -/
theorem block_apply (x0 : Vec Ideal S1x16x32 .f32) (x1 : Vec Ideal S96x32 .f32) (X : Spec.XArr) (S : Spec.SArr) (b : Fin 16384)
    (hx : ∀ (j : Fin 16) (f : Fin 32), x0 (ix3 (0 : Fin 1) j f) = X (ix3 b j f))
    (hS : ∀ (r : Fin 96) (col : Fin 32), x1 (ix2 r col) = S (ix2 r col))
    (y : S1x16x8.Idx) (q : S16384x16x8.Idx)
    (h0 : (q 0).val = b.val) (h1 : (q 1).val = (y 1).val) (h2 : (q 2).val = (y 2).val) :
    k0_pay1 (View.ld x0 r0_0) (View.ld x1 r0_1) (View.ld x1 r0_2) (View.ld x1 r0_3) (View.ld x1 r0_4) (View.ld x1 r0_5) y
      = Spec.Gref X S q := by
  obtain rfl : x1 = S := funext fun z => by rw [eq_ix2 z]; exact hS _ _
  obtain ⟨u, i, c, rfl⟩ : ∃ (u : Fin 1) (i : Fin 16) (c : Fin 8), y = ix3 u i c := ⟨y 0, y 1, y 2, eq_ix3 y⟩
  obtain rfl : u = 0 := Subsingleton.elim _ _
  rw [pay_apply x0 x1 X b hx i c]
  have e0 : q 0 = b := Fin.ext h0
  have e1 : q 1 = i := Fin.ext h1
  have e2 : q 2 = c := Fin.ext h2
  show Spec.refOut X x1 b i c = Spec.refOut X x1 (q 0) (q 1) (q 2)
  rw [e0, e1, e2]

/-! ## From the blocks to the array -/

section Blocks
variable (m : (ℓ : Loc nD τ sig) → Buf (Elt Ideal) ℓ) (ρ : Dev nD → PrngReg)

/-- The three windows' block indices at grid point `t`, decided over the 16384 points: the features' and the result's
    blocks are graph `t`'s, the table's one block is the whole table. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- WHAT POINT `t` WRITES BACK is block `t` of `Spec.Gref` of the two arguments. -/
theorem flushed_eq (c : Dev nD) (t : Fin cfg0.N) :
    (dats m 0 c).flushed 2 t = ((cfg0.win 2).blk t).view.read (Elt Ideal)
      (Spec.Gref (m ((c : Thread nD τ).loc main_arg0)) (m ((c : Thread nD τ).loc main_arg1))) := by
  rw [Value.flushed2]
  unfold out0_2
  rw [View.canon_unit_zero hz3]
  obtain ⟨a0, a1, a2, b0, b1, c0, c1, c2⟩ := idx_facts t
  have ht : t.val < 16384 := Nat.lt_of_lt_of_eq t.isLt (show cfg0.N = 16384 from N_0)
  funext j
  have hj0 : (j 0).val < 1 := (j 0).isLt
  refine block_apply (iblk m c 0 t) (iblk m c 1 t) (m ((c : Thread nD τ).loc main_arg0)) (m ((c : Thread nD τ).loc main_arg1))
    ⟨t.val, ht⟩ (fun j' f => ?_) (fun r col => ?_) j (((cfg0.win 2).blk t).view.emb j) ?_ ?_ ?_
  · show V m c main_arg0 (((cfg0.win 0).blk t).view.emb (ix3 (0 : Fin 1) j' f)) = V m c main_arg0 (ix3 ⟨t.val, ht⟩ j' f)
    refine congrArg _ (funext fun a => Fin.ext ?_)
    match a with
    | ⟨0, _⟩ => show win0_0.index t (0 : Fin 3) * 1 + 1 * 0 = t.val; omega
    | ⟨1, _⟩ => show win0_0.index t (1 : Fin 3) * 16 + 1 * j'.val = j'.val; omega
    | ⟨2, _⟩ => show win0_0.index t (2 : Fin 3) * 32 + 1 * f.val = f.val; omega
  · show V m c main_arg1 (((cfg0.win 1).blk t).view.emb (ix2 r col)) = V m c main_arg1 (ix2 r col)
    refine congrArg _ (funext fun a => Fin.ext ?_)
    match a with
    | ⟨0, _⟩ => show win0_1.index t (0 : Fin 2) * 96 + 1 * r.val = r.val; omega
    | ⟨1, _⟩ => show win0_1.index t (1 : Fin 2) * 32 + 1 * col.val = col.val; omega
  · show win0_2.index t (0 : Fin 3) * 1 + 1 * (j 0).val = t.val; omega
  · show win0_2.index t (1 : Fin 3) * 16 + 1 * (j 1).val = (j 1).val; omega
  · show win0_2.index t (2 : Fin 3) * 8 + 1 * (j 2).val = (j 2).val; omega

/-- An index of the result array is in point `t`'s block iff each coordinate is in the block's range on its axis. -/
theorem mem_blk (t : Fin cfg0.N) (i : S16384x16x8.Idx) :
    i ∈ ((cfg0.win 2).blk t).view.set ↔ ∀ a : Fin 3, win0_2.index t a * S1x16x8.size a ≤ (i a).val
      ∧ (i a).val < win0_2.index t a * S1x16x8.size a + S1x16x8.size a := by
  show i ∈ ((View.whole main_v0).slice (win0_2.rect t)).set ↔ _
  rw [View.set_slice_whole, Rect.mem_set_unit]
  exact Iff.rfl

/-- Every index `(b, i, c)` of the result lies in the block of point `b`, and every point writes its block back. -/
theorem covered (i : S16384x16x8.Idx) :
    ∃ t : Fin cfg0.N, (cfg0.win 2).flush t = true ∧ i ∈ ((cfg0.win 2).blk t).view.set := by
  have hi0 : (i 0).val < 16384 := (i 0).isLt
  have hi1 : (i 1).val < 16 := (i 1).isLt
  have hi2 : (i 2).val < 8 := (i 2).isLt
  obtain ⟨t, ht⟩ : ∃ t : Fin cfg0.N, t.val = (i 0).val :=
    ⟨⟨(i 0).val, by rw [show cfg0.N = 16384 from N_0]; exact hi0⟩, rfl⟩
  obtain ⟨-, -, -, -, -, c0, c1, c2⟩ := idx_facts t
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 16 ≤ (i 1).val ∧ (i 1).val < win0_2.index t (1 : Fin 3) * 16 + 16; omega
  | ⟨2, _⟩ => show win0_2.index t (2 : Fin 3) * 8 ≤ (i 2).val ∧ (i 2).val < win0_2.index t (2 : Fin 3) * 8 + 8; omega

/-- THE ARRAY after the run is `Spec.Gref` of the two arguments. -/
theorem final (c : Dev nD) : (dats m 0 c).arrAt 2 cfg0.N
    = Spec.Gref (m ((c : Thread nD τ).loc main_arg0)) (m ((c : Thread nD τ).loc main_arg1)) :=
  (dats m 0 c).arrAt_eq_of_cover 2 _ (fun t _ => flushed_eq m c t) covered

/-- THE RUN, READ: every weakly fair execution of the reference terminates with the result array at `Spec.Gref` of
    the two arguments and the arguments as launched. -/
theorem run : θ_run (Cert.ReferenceIdeal.defs (F := Ideal)) (onTc (τ := τ) (main (F := Ideal))) ⟨m, fun _ => 0, ρ⟩ fun r => ∀ c : Dev nD,
      r.2.mem ((c : Thread nD τ).loc main_v0)
        = Spec.Gref (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Blocks

end Cert.ReferenceIdeal.RefValue

end
-- ==== Proof.LibFinite.lean ====
/-
  Finite extended reals. An extended real is FINITE when it is a real number. Sums, products, maxima and quotients
  by a non-zero divisor of finite values are finite, and on finite values multiplication distributes over addition
  (on the extended reals it does not in general: `⊤ * (1 + -1) = 0` but `⊤ * 1 + ⊤ * -1 = ⊥`). The last section
  states the two laws a "dense combine" step needs: a sum of products against a sum of two matrices splits into two
  sums of products, and the regrouping of six summands that carries a combined bias to the two summands it belongs to.
-/
import Idealize.ShloMosaic.PureOps.Ideal.Laws

noncomputable section

namespace Cert.LibFinite

open Idealize.ShloMosaic

/-- `x` is a real number (neither `⊤` nor `⊥`). -/
def IsFin (x : EReal) : Prop := ∃ r : ℝ, x = (r : EReal)

namespace IsFin

theorem coe (r : ℝ) : IsFin (r : EReal) := ⟨r, rfl⟩
theorem zero : IsFin (0 : EReal) := ⟨0, rfl⟩
theorem one : IsFin (1 : EReal) := ⟨1, rfl⟩

theorem add {x y : EReal} (hx : IsFin x) (hy : IsFin y) : IsFin (x + y) := by
  obtain ⟨a, rfl⟩ := hx; obtain ⟨b, rfl⟩ := hy
  exact ⟨a + b, (EReal.coe_add a b).symm⟩

theorem mul {x y : EReal} (hx : IsFin x) (hy : IsFin y) : IsFin (x * y) := by
  obtain ⟨a, rfl⟩ := hx; obtain ⟨b, rfl⟩ := hy
  exact ⟨a * b, (EReal.coe_mul a b).symm⟩

theorem max {x y : EReal} (hx : IsFin x) (hy : IsFin y) : IsFin (max x y) := by
  obtain ⟨a, rfl⟩ := hx; obtain ⟨b, rfl⟩ := hy
  rcases le_total a b with h | h
  · rw [max_eq_right (EReal.coe_le_coe_iff.mpr h)]; exact ⟨b, rfl⟩
  · rw [max_eq_left (EReal.coe_le_coe_iff.mpr h)]; exact ⟨a, rfl⟩

theorem sum {ι : Type} (s : Finset ι) (f : ι → EReal) (h : ∀ i ∈ s, IsFin (f i)) : IsFin (∑ i ∈ s, f i) :=
  Finset.sum_induction f IsFin (fun _ _ => add) zero h

/-- The quotient of the ideal instance by a finite non-zero divisor. -/
theorem div {x y : EReal} (hx : IsFin x) (hy : IsFin y) (h0 : y ≠ 0) : IsFin (Ideal.div x y) := by
  obtain ⟨a, rfl⟩ := hx; obtain ⟨b, rfl⟩ := hy
  unfold Ideal.div
  rw [if_neg h0, ← EReal.coe_inv, ← EReal.coe_mul]
  exact ⟨_, rfl⟩

/-- A maximum against one is not zero (the divisor of a mean over a count that may be zero). -/
theorem max_one_ne_zero (x : EReal) : Max.max x 1 ≠ 0 :=
  ne_of_gt (lt_of_lt_of_le zero_lt_one (le_max_right x 1))

end IsFin

/-! ## The laws on finite values -/

/-- On finite values multiplication distributes over addition. -/
theorem mul_add_of_fin {x a b : EReal} (hx : IsFin x) (ha : IsFin a) (hb : IsFin b) : x * (a + b) = x * a + x * b := by
  obtain ⟨x, rfl⟩ := hx; obtain ⟨a, rfl⟩ := ha; obtain ⟨b, rfl⟩ := hb
  rw [← EReal.coe_add, ← EReal.coe_mul, ← EReal.coe_mul, ← EReal.coe_mul, ← EReal.coe_add, mul_add]

/-- A sum of products against a sum of two families splits, all factors finite: row `x` against the column of
    `A + B` is row `x` against the column of `A` plus row `x` against the column of `B`. -/
theorem sum_mul_add {ι : Type} [Fintype ι] (x a b : ι → EReal) (hx : ∀ k, IsFin (x k)) (ha : ∀ k, IsFin (a k))
    (hb : ∀ k, IsFin (b k)) : ∑ k, x k * (a k + b k) = ∑ k, x k * a k + ∑ k, x k * b k := by
  rw [← Finset.sum_add_distrib]
  exact Finset.sum_congr rfl fun k _ => mul_add_of_fin (hx k) (ha k) (hb k)

/-- Six summands regrouped: the two aggregated terms `P`, `Q`, the two self terms `X₀`, `X₃` and the two biases, summed
    as "(P + Q) + (X₀ + X₃) + (b₀ + b₃)", are the sum of the two relations' own "(P + b₀) + X₀" and "(Q + b₃) + X₃".
    Addition of extended reals is commutative and associative everywhere, so no finiteness is needed. -/
theorem combine_regroup (P Q X₀ X₃ b₀ b₃ : EReal) :
    P + Q + (X₀ + X₃) + (b₀ + b₃) = (P + b₀ + X₀) + (Q + b₃ + X₃) := by
  abel

end Cert.LibFinite

end
-- ==== Proof.LibFinDecode.lean ====
/-
  "Every entry is finite", decoded from its printed test, over the extended reals.

  A precondition written `all(|x| < +∞)` prints as a reduction by `and` of the entrywise comparison of `|x|` with the
  f32 word of `+∞`. On the extended reals `|x| = max x (−x)`, and `max x (−x) < ⊤` rules out both infinities: what
  is left is a real number. Stated for one array of any shape reduced along any axes to a scalar, whatever evidence
  the program carries for the broadcast and the reduction.
-/
import proofs.«139694_g2000206686455459_pallasbulk_945_2_alg».proof.Proof.LibFinite
import Idealize.ShloMosaic.Lib.ReduceAll
import Idealize.ShloMosaic.Lib.Pipeline.Value
import Idealize.ShloMosaic.Lib.ValueIdx

noncomputable section

namespace Cert.LibFinDecode

open Idealize.ShloMosaic Idealize.ShloMosaic.ValueIdx Cert.LibFinite

/-- The scalar shape has one index. -/
instance : Subsingleton (⟨0, ![]⟩ : Shape).Idx := ⟨fun a b => funext fun d => d.elim0⟩

/-- The f32 word `0x7F800000` is `+∞`. -/
theorem word_inf : Ideal.ofBits .f32 0x7F800000#32 = ⊤ := by simp [Ideal.ofBits, Ideal.ieee]

/-- An extended real whose absolute value is below `+∞` is a real number. -/
theorem isFin_of_abs_lt (x : EReal) (h : Ideal.cmp .olt (max x (-x)) (Ideal.ofBits .f32 0x7F800000#32) = 1#1) : IsFin x := by
  rw [word_inf] at h
  induction x using EReal.rec with
  | bot => simp [Ideal.cmp] at h
  | coe r => exact ⟨r, rfl⟩
  | top => simp [Ideal.cmp] at h

/-- One array's conjunct: if "all entries are below +∞ in absolute value" evaluates to true, every entry is real. -/
theorem all_fin {s : Shape} {axes : List (Fin s.rank)} (x : FVec Ideal s .f32) (hb : (⟨0, ![]⟩ : Shape).BroadcastsInDim s ![])
    (hr : s.ReducesTo axes (⟨0, ![]⟩ : Shape)) (hu : 0 < (⟨0, ![]⟩ : Shape).numel)
    (e : Host.reduce IntOp.andi (cmpf .olt (Host.absf x) (broadcastInDim s ![] hb (constant (⟨0, ![]⟩ : Shape) .f32 0x7F800000#32)))
      (constantI (⟨0, ![]⟩ : Shape) 1 1#1) hr hu ix0 = 1#1) (i : s.Idx) : IsFin (x i) := by
  have h1 := Host.reduce_andi_all _ _ hr hu ix0 e i
  have h2 : broadcastInDim s ![] hb (constant (F := Ideal) (⟨0, ![]⟩ : Shape) .f32 0x7F800000#32) i = Ideal.ofBits .f32 0x7F800000#32 :=
    broadcastInDim_apply _ hb _ i ix0 (fun a => a.elim0)
  apply isFin_of_abs_lt
  rw [← h2]
  exact h1

end Cert.LibFinDecode

end
-- ==== Proof.FinIn.lean ====
/-
  Finiteness of the inputs, decoded from the precondition.

  The precondition is the conjunction of two tests, one per argument array: every entry is below +∞ in absolute
  value. On the extended reals an entry passing the test is a real number. So under the precondition every entry
  of the graphs' features and of the table of constants is a real number.
-/
import proofs.«139694_g2000206686455459_pallasbulk_945_2_alg».proof.Proof.Gen.Pre_finite_inputs
import proofs.«139694_g2000206686455459_pallasbulk_945_2_alg».proof.Proof.LibFinDecode
import Idealize.ShloMosaic.Lib.Affine

noncomputable section

namespace Cert.FinIn

open Idealize.ShloMosaic Idealize.ShloMosaic.ValueIdx Cert.LibFinite Cert.Pre_finite_inputs

/-- Under the precondition both argument arrays hold real numbers only. -/
theorem fin_of_pre (x : FVec Ideal S16384x16x32 .f32) (s : FVec Ideal S96x32 .f32)
    (h : Cert.Pre_finite_inputs.fn (F := Ideal) x s = fun _ => 1#1) :
    (∀ i, IsFin (x i)) ∧ (∀ i, IsFin (s i)) := by
  have h0 := congrFun h ix0
  dsimp only [Cert.Pre_finite_inputs.fn] at h0
  obtain ⟨h1, h2⟩ := IntOp.andi_eq_one.mp h0
  exact ⟨fun i => Cert.LibFinDecode.all_fin x _ _ _ h1 i, fun i => Cert.LibFinDecode.all_fin s _ _ _ h2 i⟩

end Cert.FinIn

end
-- ==== Proof.Algebra.lean ====
/-
  The algebra behind the equality of the two results.

  Both results are explicit formulas over the extended reals (the shared specification). With every input a real
  number they agree, for three reasons:

  * a sum over the 512 lanes of a flattened graph is a double sum over 16 nodes and 32 features, and a factor taken
    from an identity matrix keeps one node of the outer sum: lane `32 j + k` of the flattened hidden row is the hidden
    feature `k` of node `j`;
  * multiplication distributes over finite sums of real numbers, so the product with `pmᵀ ⊗ w2` and the propagated
    bias regroup to the propagation of the local predictions: lane `8 i + c` of the flattened predictions is the
    prediction `c` of node `i`;
  * the log-softmax `(p c - a) - log (∑ c', exp (p c' - a))` of real numbers does not depend on the real number `a`
    that is subtracted first, because `exp (x - a) = exp x / exp a` and `log (s / exp a) = log s - a`. A maximum of
    finitely many real numbers (at least one) is a real number, whether it is taken over the 8 predictions of a node or
    over the 128 predictions of a graph.
-/
import proofs.«139694_g2000206686455459_pallasbulk_945_2_alg».proof.Proof.Spec
import proofs.«139694_g2000206686455459_pallasbulk_945_2_alg».proof.Proof.LibFinite

noncomputable section

open scoped BigOperators

namespace Cert.Algebra

open Idealize.ShloMosaic Idealize.ShloMosaic.ValueIdx
open Cert.LibFinite Cert.Spec

/-! ## Lanes: `Fin N` with `N = m * n` as `m` groups of `n` lanes -/

theorem lane_lt {m n N : ℕ} (hN : m * n = N) (j : Fin m) (k : Fin n) : n * j.val + k.val < N := by
  subst hN
  have hj := j.isLt
  have hk := k.isLt
  calc n * j.val + k.val < n * j.val + n := by omega
    _ = n * (j.val + 1) := by ring
    _ ≤ n * m := Nat.mul_le_mul_left _ hj
    _ = m * n := Nat.mul_comm _ _

/-- Lane `k` of group `j`: the lane `n * j + k`. -/
def lane {m n N : ℕ} (hN : m * n = N) (j : Fin m) (k : Fin n) : Fin N := ⟨n * j.val + k.val, lane_lt hN j k⟩

theorem lane_val {m n N : ℕ} (hN : m * n = N) (j : Fin m) (k : Fin n) : (lane hN j k).val = n * j.val + k.val := rfl

theorem lane_div {m n N : ℕ} (hN : m * n = N) (j : Fin m) (k : Fin n) : (lane hN j k).val / n = j.val := by
  have hk := k.isLt
  have hn : 0 < n := by omega
  rw [lane_val, Nat.mul_add_div hn, Nat.div_eq_of_lt hk, Nat.add_zero]

theorem lane_mod {m n N : ℕ} (hN : m * n = N) (j : Fin m) (k : Fin n) : (lane hN j k).val % n = k.val := by
  rw [lane_val, Nat.mul_add_mod, Nat.mod_eq_of_lt k.isLt]

/-- A sum over all lanes is the sum over the groups of the sums over a group's lanes. -/
theorem sum_lanes {M : Type} [AddCommMonoid M] {m n N : ℕ} (hN : m * n = N) (f : Fin N → M) :
    ∑ r, f r = ∑ j : Fin m, ∑ k : Fin n, f (lane hN j k) := by
  subst hN
  rw [← Equiv.sum_comp finProdFinEquiv f, Fintype.sum_prod_type]
  refine Finset.sum_congr rfl fun j _ => Finset.sum_congr rfl fun k _ => ?_
  congr 1
  apply Fin.ext
  show k.val + n * j.val = n * j.val + k.val
  exact Nat.add_comm _ _

/-! ## Real numbers inside the extended reals -/

theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem exp_coe (a : ℝ) : Ideal.exp (a : EReal) = ((Real.exp a : ℝ) : EReal) := rfl

theorem log_coe {a : ℝ} (h : 0 < a) : Ideal.log (a : EReal) = ((Real.log a : ℝ) : EReal) := by
  show (if a ≤ 0 then (⊥ : EReal) else ((Real.log a : ℝ) : EReal)) = _
  rw [if_neg (not_le.mpr h)]

/-- The running maximum, started from `⊥`, of finitely many real numbers (at least one) is a real number. -/
theorem isFin_fold_max {ι : Type} (s : Finset ι) (f : ι → EReal) (hs : s.Nonempty) (hf : ∀ i ∈ s, IsFin (f i)) :
    IsFin (s.fold max ⊥ f) := by
  classical
  induction s using Finset.induction_on with
  | empty => exact absurd hs Finset.not_nonempty_empty
  | insert a s ha ih =>
    rw [Finset.fold_insert ha]
    rcases s.eq_empty_or_nonempty with h | h
    · subst h
      rw [Finset.fold_empty, max_bot_right]
      exact hf a (Finset.mem_insert_self a _)
    · exact IsFin.max (hf a (Finset.mem_insert_self _ _)) (ih h fun i hi => hf i (Finset.mem_insert_of_mem hi))

/-! ## Distributivity: the second layer followed by the propagation -/

theorem real_regroup {ι κ : Type} [Fintype ι] [Fintype κ] (H : ι → κ → ℝ) (P : ι → ℝ) (W : κ → ℝ) (B : ℝ) :
    (∑ j, ∑ k, H j k * (P j * W k)) + (∑ j, P j) * B = ∑ j, P j * ((∑ k, H j k * W k) + B) := by
  simp only [mul_add, Finset.sum_add_distrib, Finset.sum_mul, Finset.mul_sum]
  congr 1
  refine Finset.sum_congr rfl fun j _ => Finset.sum_congr rfl fun k _ => ?_
  ring

/-- The same regrouping of real numbers read inside the extended reals: a weighted sum against `P ⊗ W` plus the
    weights' total times a bias is the `P`-weighted sum of "row against `W`, plus the bias". -/
theorem ereal_regroup {ι κ : Type} [Fintype ι] [Fintype κ] (H : ι → κ → EReal) (P : ι → EReal) (W : κ → EReal)
    (B : EReal) (hH : ∀ j k, IsFin (H j k)) (hP : ∀ j, IsFin (P j)) (hW : ∀ k, IsFin (W k)) (hB : IsFin B) :
    (∑ j, ∑ k, H j k * (P j * W k)) + (∑ j, P j) * B = ∑ j, P j * ((∑ k, H j k * W k) + B) := by
  choose Hr hHr using hH
  choose Pr hPr using hP
  choose Wr hWr using hW
  obtain ⟨Br, rfl⟩ := hB
  simp only [hHr, hPr, hWr, ← EReal.coe_mul, ← coe_sum, ← EReal.coe_add]
  rw [real_regroup]

/-! ## The log-softmax does not depend on the real number subtracted first -/

theorem real_log_sum_exp_sub {ι : Type} [Fintype ι] [Nonempty ι] (p : ι → ℝ) (a : ℝ) :
    Real.log (∑ c, Real.exp (p c - a)) = Real.log (∑ c, Real.exp (p c)) - a := by
  have hpos : 0 < ∑ c, Real.exp (p c) := Finset.sum_pos (fun c _ => Real.exp_pos _) Finset.univ_nonempty
  simp only [Real.exp_sub]
  rw [← Finset.sum_div, Real.log_div hpos.ne' (Real.exp_ne_zero a), Real.log_exp]

/-- For real numbers `p` and a real number `a`, the log-softmax with `a` subtracted first is the plain one. -/
theorem logsoftmax_shift {ι : Type} [Fintype ι] [Nonempty ι] (p : ι → EReal) (hp : ∀ c, IsFin (p c)) {a : EReal}
    (ha : IsFin a) (c : ι) :
    (p c - a) - Ideal.log (∑ c', Ideal.exp (p c' - a)) = p c - Ideal.log (∑ c', Ideal.exp (p c')) := by
  choose pr hpr using hp
  obtain ⟨ar, rfl⟩ := ha
  have hpos1 : 0 < ∑ c', Real.exp (pr c' - ar) := Finset.sum_pos (fun _ _ => Real.exp_pos _) Finset.univ_nonempty
  have hpos2 : 0 < ∑ c', Real.exp (pr c') := Finset.sum_pos (fun _ _ => Real.exp_pos _) Finset.univ_nonempty
  have e1 : (∑ c', Ideal.exp (p c' - (ar : EReal))) = ((∑ c', Real.exp (pr c' - ar) : ℝ) : EReal) := by
    rw [coe_sum]
    refine Finset.sum_congr rfl fun c' _ => ?_
    rw [hpr c', ← EReal.coe_sub, exp_coe]
  have e2 : (∑ c', Ideal.exp (p c')) = ((∑ c', Real.exp (pr c') : ℝ) : EReal) := by
    rw [coe_sum]
    refine Finset.sum_congr rfl fun c' _ => ?_
    rw [hpr c', exp_coe]
  rw [e1, e2, log_coe hpos1, log_coe hpos2, real_log_sum_exp_sub, hpr c]
  simp only [← EReal.coe_sub]
  congr 1
  ring

/-! ## A factor from the identity matrix keeps one group -/

theorem eye_self (a : ℕ) : eye a a = 1 := if_pos rfl

theorem eye_ne {a b : ℕ} (h : a ≠ b) : eye a b = 0 := if_neg h

theorem isFin_eye (a b : ℕ) : IsFin (eye a b) := by
  unfold eye
  split
  · exact IsFin.one
  · exact IsFin.zero

/-- In a double sum over groups and lanes, the factor `eye j j₀` leaves the lanes of group `j₀`. No finiteness is
    needed: `x * (0 * y) = 0` and `1 * y = y` hold for all extended reals. -/
theorem sum_eye_group {m n : ℕ} (j0 : Fin m) (F G : Fin m → Fin n → EReal) :
    ∑ j : Fin m, ∑ k : Fin n, F j k * (eye j.val j0.val * G j k) = ∑ k : Fin n, F j0 k * G j0 k := by
  rw [Finset.sum_eq_single j0]
  · refine Finset.sum_congr rfl fun k _ => ?_
    rw [eye_self, one_mul]
  · intro j _ hj
    have h0 : eye j.val j0.val = 0 := eye_ne fun h => hj (Fin.ext h)
    simp only [h0, zero_mul, mul_zero, Finset.sum_const_zero]
  · intro h
    exact absurd (Finset.mem_univ _) h

/-! ## The specification's definitions at the lanes -/

theorem h512 : 16 * 32 = 512 := by norm_num

theorem h128 : 16 * 8 = 128 := by norm_num

section Finite

variable {X : XArr} {S : SArr} (hX : ∀ i, IsFin (X i)) (hS : ∀ i, IsFin (S i))

include hS in
theorem isFin_pm (i j : Fin 16) : IsFin (pm S i j) := hS _

include hS in
theorem isFin_w2 (k : Fin 32) (c : Fin 8) : IsFin (w2 S k c) := hS _

include hS in
theorem isFin_b2 (c : Fin 8) : IsFin (b2 S c) := hS _

include hX hS in
theorem isFin_hid (b : Fin 16384) (j : Fin 16) (k : Fin 32) : IsFin (hid X S b j k) :=
  IsFin.max (IsFin.add (IsFin.sum _ _ fun _ _ => IsFin.mul (hX _) (hS _)) (hS _)) IsFin.zero

include hX hS in
theorem isFin_loc (b : Fin 16384) (j : Fin 16) (c : Fin 8) : IsFin (loc X S b j c) :=
  IsFin.add (IsFin.sum _ _ fun _ _ => IsFin.mul (isFin_hid hX hS _ _ _) (hS _)) (hS _)

include hX hS in
theorem isFin_preds (b : Fin 16384) (i : Fin 16) (c : Fin 8) : IsFin (preds X S b i c) :=
  IsFin.sum _ _ fun _ _ => IsFin.mul (hS _) (isFin_loc hX hS _ _ _)

include hX hS in
theorem isFin_rowMax (b : Fin 16384) (i : Fin 16) : IsFin (rowMax X S b i) :=
  isFin_fold_max _ _ Finset.univ_nonempty fun c _ => isFin_preds hX hS b i c

include hX hS in
theorem isFin_hK (g : Fin 16384) (col : Fin 512) : IsFin (hK X S g col) :=
  IsFin.max (IsFin.add (IsFin.sum _ _ fun _ _ => IsFin.mul (hX _) (IsFin.mul (isFin_eye _ _) (hS _))) (hS _))
    IsFin.zero

include hX hS in
theorem isFin_zK (g : Fin 16384) (q : Fin 128) : IsFin (zK X S g q) :=
  IsFin.add (IsFin.sum _ _ fun _ _ => IsFin.mul (isFin_hK hX hS _ _) (IsFin.mul (hS _) (hS _)))
    (IsFin.mul (IsFin.sum _ _ fun _ _ => hS _) (hS _))

include hX hS in
theorem isFin_MK (g : Fin 16384) : IsFin (MK X S g) :=
  isFin_fold_max _ _ Finset.univ_nonempty fun q _ => isFin_zK hX hS g q

end Finite

section Lanes

variable (X : XArr) (S : SArr)

theorem x2_lane (g : Fin 16384) (j : Fin 16) (f : Fin 32) : x2 X g (lane h512 j f) = X (ix3 g j f) := by
  unfold x2
  simp only [lane_div, lane_mod, Fin.eta]

theorem w1k_lane (j j' : Fin 16) (f k : Fin 32) :
    w1k S (lane h512 j f) (lane h512 j' k) = eye j.val j'.val * w1 S f k := by
  unfold w1k
  simp only [lane_div, lane_mod, Fin.eta]

theorem b1t_lane (j : Fin 16) (k : Fin 32) : b1t S (lane h512 j k) = b1 S k := by
  unfold b1t
  simp only [lane_mod, Fin.eta]

theorem m2_lane (j : Fin 16) (k : Fin 32) (i : Fin 16) (c : Fin 8) :
    m2 S (lane h512 j k) (lane h128 i c) = pm S i j * w2 S k c := by
  unfold m2
  simp only [lane_div, lane_mod, Fin.eta]

theorem b2t_lane (i : Fin 16) (c : Fin 8) : b2t S (lane h128 i c) = (∑ j : Fin 16, pm S i j) * b2 S c := by
  unfold b2t
  simp only [lane_div, lane_mod, Fin.eta]

theorem gm_lane (i' i : Fin 16) (c' c : Fin 8) : gm (lane h128 i' c') (lane h128 i c) = eye i'.val i.val * 1 := by
  unfold gm
  simp only [lane_div]

/-- Lane `32 j + k` of the flattened hidden row is hidden feature `k` of node `j`. -/
theorem hK_lane (g : Fin 16384) (j : Fin 16) (k : Fin 32) : hK X S g (lane h512 j k) = hid X S g j k := by
  unfold hK hid
  rw [sum_lanes h512, b1t_lane]
  simp only [x2_lane, w1k_lane]
  rw [sum_eye_group j (fun j' f => X (ix3 g j' f)) (fun _ f => w1 S f k)]

end Lanes

section Main

variable {X : XArr} {S : SArr} (hX : ∀ i, IsFin (X i)) (hS : ∀ i, IsFin (S i))

include hX hS in
/-- Lane `8 i + c` of the flattened predictions is prediction `c` of node `i`. -/
theorem zK_lane (g : Fin 16384) (i : Fin 16) (c : Fin 8) : zK X S g (lane h128 i c) = preds X S g i c := by
  unfold zK preds loc
  rw [sum_lanes h512, b2t_lane]
  simp only [hK_lane, m2_lane]
  exact ereal_regroup (fun j k => hid X S g j k) (fun j => pm S i j) (fun k => w2 S k c) (b2 S c)
    (fun j k => isFin_hid hX hS g j k) (fun j => isFin_pm hS i j) (fun k => isFin_w2 hS k c) (isFin_b2 hS c)

include hX hS in
/-- The kernel's entry at lane `8 i + c` is the reference's entry at node `i`, class `c`. -/
theorem kerOut_lane (g : Fin 16384) (i : Fin 16) (c : Fin 8) : kerOut X S g (lane h128 i c) = refOut X S g i c := by
  unfold kerOut refOut
  rw [sum_lanes h128]
  simp only [gm_lane, zK_lane hX hS]
  rw [sum_eye_group i (fun i' c' => Ideal.exp (preds X S g i' c' - MK X S g)) (fun _ _ => 1)]
  simp only [mul_one]
  rw [logsoftmax_shift (fun c' => preds X S g i c') (fun c' => isFin_preds hX hS g i c') (isFin_MK hX hS g) c,
    logsoftmax_shift (fun c' => preds X S g i c') (fun c' => isFin_preds hX hS g i c') (isFin_rowMax hX hS g i) c]

end Main

/-- With every input a real number the two results are equal. -/
theorem Gker_eq_Gref (X : Cert.Spec.XArr) (S : Cert.Spec.SArr) (hX : ∀ i, Cert.LibFinite.IsFin (X i))
    (hS : ∀ i, Cert.LibFinite.IsFin (S i)) : Cert.Spec.Gker X S = Cert.Spec.Gref X S := by
  funext p
  exact kerOut_lane hX hS (p 0) (p 1) (p 2)

end Cert.Algebra

end
-- ==== Proof.lean ====
/-
  A fused graph-network forward pass against its per-graph reference, over the extended reals.

  Both programs take 16384 graphs of 16 nodes with 32 features and one 96 x 32 table packing two dense layers and a
  16 x 16 propagation matrix, and return 8 log-probabilities per node: a rectified dense layer, a second dense layer,
  the propagation of the predictions over the graph's nodes, and a log-softmax over each node's 8 classes.

  The reference handles one graph per grid point with three small matrix products. The kernel flattens each graph to
  a row of 512 lanes and handles 1024 graphs per grid point with three block matrices built on the host from the same
  table (the identity ⊗ first layer, the transposed propagation ⊗ second layer, the identity ⊗ an 8 x 8 block of ones
  for the class-group sums), and before exponentiating subtracts the maximum of a graph's WHOLE row of 128
  predictions where the reference subtracts each node's own maximum.

  On real numbers the two agree: the block matrices collapse to the per-node products (a sum against the identity
  factor keeps one term; the propagation distributes over the second layer's sum and bias), and log-softmax does not
  change when one constant is subtracted from all of a node's predictions. Distributivity fails at the infinities of
  the extended reals, so the proof uses the precondition: every input entry is a real number.

  The pieces: `Spec` states both results index by index; `KerPay` / `KerValue` read the kernel's run as the first
  (with `Glue` reading the host-built matrices entry by entry), `RefValue` reads the reference's run as the second,
  `FinIn` decodes the precondition, `Algebra` proves the two specifications equal on finite inputs. The three frame
  claims are the generated frames; the idealization rewrote nothing, so `preserves` is trivial.
-/
import proofs.«139694_g2000206686455459_pallasbulk_945_2_alg».proof.Defs
import proofs.«139694_g2000206686455459_pallasbulk_945_2_alg».proof.Proof.Gen.Kernel
import proofs.«139694_g2000206686455459_pallasbulk_945_2_alg».proof.Proof.Gen.Kernel.Skeleton
import proofs.«139694_g2000206686455459_pallasbulk_945_2_alg».proof.Proof.Gen.Kernel.Launch
import proofs.«139694_g2000206686455459_pallasbulk_945_2_alg».proof.Proof.Gen.Kernel.Points
import proofs.«139694_g2000206686455459_pallasbulk_945_2_alg».proof.Proof.Gen.Kernel.Frame
import proofs.«139694_g2000206686455459_pallasbulk_945_2_alg».proof.Proof.Gen.KernelIdeal
import proofs.«139694_g2000206686455459_pallasbulk_945_2_alg».proof.Proof.Gen.KernelIdeal.Skeleton
import proofs.«139694_g2000206686455459_pallasbulk_945_2_alg».proof.Proof.Gen.KernelIdeal.Launch
import proofs.«139694_g2000206686455459_pallasbulk_945_2_alg».proof.Proof.Gen.KernelIdeal.Points
import proofs.«139694_g2000206686455459_pallasbulk_945_2_alg».proof.Proof.Gen.KernelIdeal.Frame
import proofs.«139694_g2000206686455459_pallasbulk_945_2_alg».proof.Proof.Gen.ReferenceIdeal
import proofs.«139694_g2000206686455459_pallasbulk_945_2_alg».proof.Proof.Gen.ReferenceIdeal.Skeleton
import proofs.«139694_g2000206686455459_pallasbulk_945_2_alg».proof.Proof.Gen.ReferenceIdeal.Launch
import proofs.«139694_g2000206686455459_pallasbulk_945_2_alg».proof.Proof.Gen.ReferenceIdeal.Points
import proofs.«139694_g2000206686455459_pallasbulk_945_2_alg».proof.Proof.Gen.ReferenceIdeal.Frame
import proofs.«139694_g2000206686455459_pallasbulk_945_2_alg».proof.Proof.Gen.ReferenceIdeal.Value
import proofs.«139694_g2000206686455459_pallasbulk_945_2_alg».proof.Proof.Gen.Pre_finite_inputs
import proofs.«139694_g2000206686455459_pallasbulk_945_2_alg».proof.Proof.Spec
import proofs.«139694_g2000206686455459_pallasbulk_945_2_alg».proof.Proof.Glue
import proofs.«139694_g2000206686455459_pallasbulk_945_2_alg».proof.Proof.KerValue
import proofs.«139694_g2000206686455459_pallasbulk_945_2_alg».proof.Proof.RefValue
import proofs.«139694_g2000206686455459_pallasbulk_945_2_alg».proof.Proof.FinIn
import proofs.«139694_g2000206686455459_pallasbulk_945_2_alg».proof.Proof.Algebra
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ
/-- So does the idealized kernel, -/
theorem frame_ki : Cert.frame_KernelIdeal := fun m ρ _ => Cert.KernelIdeal.Gen.frame m ρ
/-- and the idealized reference. -/
theorem frame_ri : Cert.frame_ReferenceIdeal := fun m ρ _ => Cert.ReferenceIdeal.Gen.frame m ρ

/-- The idealization rewrote no operation. -/
theorem preserves : Cert.preserves_Kernel_KernelIdeal := trivial

/-- From memories agreeing on the arguments, the idealized kernel ends at `Gker` of the arguments and the idealized
    reference at `Gref` of them; the inputs are real numbers under the precondition, where the two functions agree. -/
theorem algebraic : Cert.algebraic_KernelIdeal_ReferenceIdeal := by
  intro m ρ m' ρ' hpre hagree
  refine ⟨fun c => Cert.Spec.Gker (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact Cert.KernelIdeal.KerValue.run m ρ (fun c =>
      ⟨Cert.KernelIdeal.Glue.V_x2 m c, Cert.KernelIdeal.Glue.V_w1k m c, Cert.KernelIdeal.Glue.V_b1t m c,
       Cert.KernelIdeal.Glue.V_m2 m c, Cert.KernelIdeal.Glue.V_b2t m c, Cert.KernelIdeal.Glue.V_gm m c⟩)
  · refine (θ_run Cert.ReferenceIdeal.defs _ _).mono (fun r h c => ⟨(h c).1.trans ?_, (h c).2⟩)
      (Cert.ReferenceIdeal.RefValue.run m' ρ')
    rw [(hagree c).1, (hagree c).2]
    obtain ⟨hX, hS⟩ := Cert.FinIn.fin_of_pre _ _ (hpre c)
    exact (Cert.Algebra.Gker_eq_Gref _ _ hX hS).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
